-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x7x7 : Shape := ⟨4, ![256, 1024, 7, 7]⟩
abbrev S768x50176 : Shape := ⟨2, ![768, 50176]⟩
abbrev S768 : Shape := ⟨1, ![768]⟩
abbrev S5x768 : Shape := ⟨2, ![5, 768]⟩
abbrev S5 : Shape := ⟨1, ![5]⟩
abbrev S_ : Shape := ⟨0, ![]⟩

class Facts : Prop where
  bcast_S_S256x1024x7x7 : S_.BroadcastsInDim S256x1024x7x7 (![] : Fin 0 → Fin S256x1024x7x7.rank)
  reducesTo_S256x1024x7x7_S_d0_1_2_3 : S256x1024x7x7.ReducesTo [0, 1, 2, 3] S_
  h_S_ : 0 < S_.numel
  bcast_S_S768x50176 : S_.BroadcastsInDim S768x50176 (![] : Fin 0 → Fin S768x50176.rank)
  reducesTo_S768x50176_S_d0_1 : S768x50176.ReducesTo [0, 1] S_
  bcast_S_S768 : S_.BroadcastsInDim S768 (![] : Fin 0 → Fin S768.rank)
  reducesTo_S768_S_d0 : S768.ReducesTo [0] S_
  bcast_S_S5x768 : S_.BroadcastsInDim S5x768 (![] : Fin 0 → Fin S5x768.rank)
  reducesTo_S5x768_S_d0_1 : S5x768.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S5 .f32) (main_v13 : IVec S_ 1) (main_v16 : IVec S5x768 1) : IVec S_ 1 :=
  let main_c_5 : IVec S_ 1 := constantI S_ 1 1#1
  let main_v17 : IVec S_ 1 := (fun x v => Host.reduce IntOp.andi x v reducesTo_S5x768_S_d0_1 h_S_) main_v16 main_c_5
  let main_v18 : IVec S_ 1 := andi main_v13 main_v17
  let main_v19 : FVec F S5 .f32 := Host.absf main_arg4
  let main_cst_6 : FVec F S_ .f32 := constant S_ .f32 0x7F800000#32
  let main_v20 : FVec F S5 .f32 := broadcastInDim S5 ![] bcast_S_S5 main_cst_6
  let main_v21 : IVec S5 1 := cmpf .olt main_v19 main_v20
  let main_c_7 : IVec S_ 1 := constantI S_ 1 1#1
  let main_v22 : IVec S_ 1 := (fun x v => Host.reduce IntOp.andi x v reducesTo_S5_S_d0 h_S_) main_v21 main_c_7
  let main_v23 : IVec S_ 1 := andi main_v18 main_v22
  main_v23

def fn {F : FTy → Type} [FloatOps F] (main_arg0 : FVec F S256x1024x7x7 .f32) (main_arg1 : FVec F S768x50176 .f32) (main_arg2 : FVec F S768 .f32) (main_arg3 : FVec F S5x768 .f32) (main_arg4 : FVec F S5 .f32) : IVec S_ 1 :=
  let main_v0 : FVec F S256x1024x7x7 .f32 := Host.absf main_arg0
  let main_cst : FVec F S_ .f32 := constant S_ .f32 0x7F800000#32
  let main_v1 : FVec F S256x1024x7x7 .f32 := broadcastInDim S256x1024x7x7 ![] bcast_S_S256x1024x7x7 main_cst
  let main_v2 : IVec S256x1024x7x7 1 := cmpf .olt main_v0 main_v1
  let main_c : IVec S_ 1 := constantI S_ 1 1#1
  let main_v3 : IVec S_ 1 := (fun x v => Host.reduce IntOp.andi x v reducesTo_S256x1024x7x7_S_d0_1_2_3 h_S_) main_v2 main_c
  let main_v4 : FVec F S768x50176 .f32 := Host.absf main_arg1
  let main_cst_0 : FVec F S_ .f32 := constant S_ .f32 0x7F800000#32
  let main_v5 : FVec F S768x50176 .f32 := broadcastInDim S768x50176 ![] bcast_S_S768x50176 main_cst_0
  let main_v6 : IVec S768x50176 1 := cmpf .olt main_v4 main_v5
  let main_c_1 : IVec S_ 1 := constantI S_ 1 1#1
  let main_v7 : IVec S_ 1 := (fun x v => Host.reduce IntOp.andi x v reducesTo_S768x50176_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S5x768 .f32 := Host.absf main_arg3
  let main_cst_4 : FVec F S_ .f32 := constant S_ .f32 0x7F800000#32
  let main_v15 : FVec F S5x768 .f32 := broadcastInDim S5x768 ![] bcast_S_S5x768 main_cst_4
  let main_v16 : IVec S5x768 1 := cmpf .olt main_v14 main_v15
  fn_part1 (F := F) main_arg4 main_v13 main_v16
-- ==== Kernel.lean ====
abbrev S256x1024x7x7 : Shape := ⟨4, ![256, 1024, 7, 7]⟩
abbrev S768x50176 : Shape := ⟨2, ![768, 50176]⟩
abbrev S768 : Shape := ⟨1, ![768]⟩
abbrev S5x768 : Shape := ⟨2, ![5, 768]⟩
abbrev S5 : Shape := ⟨1, ![5]⟩
abbrev S2x1024x7x7 : Shape := ⟨4, ![2, 1024, 7, 7]⟩
abbrev S2x1024x7 : Shape := ⟨3, ![2, 1024, 7]⟩
abbrev S2x1024x7x1 : Shape := ⟨4, ![2, 1024, 7, 1]⟩
abbrev S2x1024x1 : Shape := ⟨3, ![2, 1024, 1]⟩
abbrev S2x1024x1x1 : Shape := ⟨4, ![2, 1024, 1, 1]⟩
abbrev S256x50176 : Shape := ⟨2, ![256, 50176]⟩
abbrev S1x768 : Shape := ⟨2, ![1, 768]⟩
abbrev S1x5 : Shape := ⟨2, ![1, 5]⟩
abbrev S256x5 : Shape := ⟨2, ![256, 5]⟩
abbrev S256x3584 : Shape := ⟨2, ![256, 3584]⟩
abbrev S768x3584 : Shape := ⟨2, ![768, 3584]⟩
abbrev S256x768 : Shape := ⟨2, ![256, 768]⟩

abbrev nBuf : Space → Nat
  | .hbm => 10
  | .vmem => 13
  | .smem => 0
  | _ => 0

abbrev bufTy : (tb : Table) → Fin (tcTables nBuf tb) → BufTy
  | .hbm, ⟨0, _⟩ => ⟨S256x1024x7x7, .f32⟩
  | .hbm, ⟨1, _⟩ => ⟨S768x50176, .f32⟩
  | .hbm, ⟨2, _⟩ => ⟨S768, .f32⟩
  | .hbm, ⟨3, _⟩ => ⟨S5x768, .f32⟩
  | .hbm, ⟨4, _⟩ => ⟨S5, .f32⟩
  | .hbm, ⟨5, _⟩ => ⟨S256x1024x7x7, .f32⟩
  | .hbm, ⟨6, _⟩ => ⟨S256x50176, .f32⟩
  | .hbm, ⟨7, _⟩ => ⟨S1x768, .f32⟩
  | .hbm, ⟨8, _⟩ => ⟨S1x5, .f32⟩
  | .hbm, ⟨9, _⟩ => ⟨S256x5, .f32⟩
  | .local _ .vmem, ⟨0, _⟩ => ⟨S2x1024x7x7, .f32⟩
  | .local _ .vmem, ⟨1, _⟩ => ⟨S2x1024x7x7, .f32⟩
  | .local _ .vmem, ⟨2, _⟩ => ⟨S2x1024x7x7, .f32⟩
  | .local _ .vmem, ⟨3, _⟩ => ⟨S2x1024x7x7, .f32⟩
  | .local _ .vmem, ⟨4, _⟩ => ⟨S256x3584, .f32⟩
  | .local _ .vmem, ⟨5, _⟩ => ⟨S256x3584, .f32⟩
  | .local _ .vmem, ⟨6, _⟩ => ⟨S768x3584, .f32⟩
  | .local _ .vmem, ⟨7, _⟩ => ⟨S768x3584, .f32⟩
  | .local _ .vmem, ⟨8, _⟩ => ⟨S1x768, .f32⟩
  | .local _ .vmem, ⟨9, _⟩ => ⟨S5x768, .f32⟩
  | .local _ .vmem, ⟨10, _⟩ => ⟨S1x5, .f32⟩
  | .local _ .vmem, ⟨11, _⟩ => ⟨S256x5, .f32⟩
  | .local _ .vmem, ⟨12, _⟩ => ⟨S256x768, .f32⟩
  | _, _ => ⟨S256x1024x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x1024x7x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![14], ![false]⟩

def k1_cond2 (i : grid1.Coords) : BitVec 1 :=
  let arg0 : BitVec 32 := BitVec.ofNat 32 (i 0).val
  let c13_i32 : BitVec 32 := 13#32
  let v14 : BitVec 1 := Scalar.cmpi .eq arg0 c13_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x3584 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S768x3584 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x5 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  inb_S2x1024x7x7_S2x1024x7x7_0_0_0_0 : ∀ a, (![0, 0, 0, 0] : Fin 4 → Nat) a + S2x1024x7x7.size a ≤ S2x1024x7x7.size a
  h_S2x1024x7x7 : 0 < S2x1024x7x7.numel
  reduces_S2x1024x7x7_S2x1024x7 : S2x1024x7x7.Reduces [3] S2x1024x7
  shapeCasts_S2x1024x7_S2x1024x7x1 : S2x1024x7.ShapeCasts S2x1024x7x1
  reduces_S2x1024x7x1_S2x1024x1 : S2x1024x7x1.Reduces [2] S2x1024x1
  shapeCasts_S2x1024x1_S2x1024x1x1 : S2x1024x1.ShapeCasts S2x1024x1x1
  broadcasts_S2x1024x1x1_S2x1024x7x7 : S2x1024x1x1.Broadcasts S2x1024x7x7
  shapeCasts_S256x1024x7x7_S256x50176 : S256x1024x7x7.ShapeCasts S256x50176
  shapeCasts_S768_S1x768 : S768.ShapeCasts S1x768
  shapeCasts_S5_S1x5 : S5.ShapeCasts S1x5
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S256x3584_S256x3584_0_0 : ∀ a, (![0, 0] : Fin 2 → Nat) a + S256x3584.size a ≤ S256x3584.size a
  h_S256x3584 : 0 < S256x3584.numel
  shapeCasts_S256x3584_S256x3584 : S256x3584.ShapeCasts S256x3584
  bitsLt_bf16_f32 : FTy.bits .bf16 < FTy.bits .f32
  inb_S768x3584_S768x3584_0_0 : ∀ a, (![0, 0] : Fin 2 → Nat) a + S768x3584.size a ≤ S768x3584.size a
  h_S768x3584 : 0 < S768x3584.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S5x768_S5x768_0_0 : ∀ a, (![0, 0] : Fin 2 → Nat) a + S5x768.size a ≤ S5x768.size a
  h_S5x768 : 0 < S5x768.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S256x5 : S1x5.Broadcasts S256x5
  inb_S256x5_S256x5_0_0 : ∀ a, (![0, 0] : Fin 2 → Nat) a + S256x5.size a ≤ S256x5.size a
  h_S256x5 : 0 < S256x5.numel
  dot_S256x3584_S768x3584_S256x768_1_1_0_0_n_n_wf : DotDims.WF S256x3584 S768x3584 S256x768 [1] [1] [0] [0] [] []
  dot_S256x768_S5x768_S256x5_1_1_0_0_n_n_wf : DotDims.WF S256x768 S5x768 S256x5 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x7x7.size a ≤ S256x1024x7x7.size a
  hwx0_0 : ∀ i : grid0.Coords, EltTy.bits .f32 = 32 ∨ (Rect.block (s := S256x1024x7x7) S2x1024x7x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x7x7.size a ≤ S256x1024x7x7.size a
  hwx0_1 : ∀ i : grid0.Coords, EltTy.bits .f32 = 32 ∨ (Rect.block (s := S256x1024x7x7) S2x1024x7x7.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3584.size a ≤ S256x50176.size a
  hwx1_0 : ∀ i : grid1.Coords, EltTy.bits .f32 = 32 ∨ (Rect.block (s := S256x50176) S256x3584.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S768x3584.size a ≤ S768x50176.size a
  hwx1_1 : ∀ i : grid1.Coords, EltTy.bits .f32 = 32 ∨ (Rect.block (s := S768x50176) S768x3584.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x768.size a ≤ S5x768.size a
  hwx1_3 : ∀ i : grid1.Coords, EltTy.bits .f32 = 32 ∨ (Rect.block (s := S5x768) S5x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x5.size a ≤ S1x5.size a
  hwx1_4 : ∀ i : grid1.Coords, EltTy.bits .f32 = 32 ∨ (Rect.block (s := S1x5) S1x5.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x5.size a ≤ S256x5.size a
  hwx1_5 : ∀ i : grid1.Coords, EltTy.bits .f32 = 32 ∨ (Rect.block (s := S256x5) S256x5.size (cc1_transform_5 i) (hinb1_5 i)).WholeWords (EltTy.packing .f32)

variable [Facts₀]

def dot_S256x3584_S768x3584_S256x768_1_1_0_0_n_n : DotDims S256x3584 S768x3584 S256x768 where
  lhsContracting := [1]
  rhsContracting := [1]
  lhsNonContracting := [0]
  rhsNonContracting := [0]
  lhsBatch := []
  rhsBatch := []
  wf := dot_S256x3584_S768x3584_S256x768_1_1_0_0_n_n_wf
def dot_S256x768_S5x768_S256x5_1_1_0_0_n_n : DotDims S256x768 S5x768 S256x5 where
  lhsContracting := [1]
  rhsContracting := [1]
  lhsNonContracting := [0]
  rhsNonContracting := [0]
  lhsBatch := []
  rhsBatch := []
  wf := dot_S256x768_S5x768_S256x5_1_1_0_0_n_n_wf

abbrev win0_0 : Pipeline.Window sig grid0 :=
  Pipeline.Window.ofSpec (Memref.whole main_arg0) S2x1024x7x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1024x7x7.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x3584.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S768x3584.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S5x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x5.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S256x5.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S256x1024x7x7 : Shape := ⟨4, ![256, 1024, 7, 7]⟩
abbrev S768x50176 : Shape := ⟨2, ![768, 50176]⟩
abbrev S768 : Shape := ⟨1, ![768]⟩
abbrev S5x768 : Shape := ⟨2, ![5, 768]⟩
abbrev S5 : Shape := ⟨1, ![5]⟩
abbrev S_ : Shape := ⟨0, ![]⟩
abbrev S256x1024 : Shape := ⟨2, ![256, 1024]⟩
abbrev S256x1024x1x1 : Shape := ⟨4, ![256, 1024, 1, 1]⟩
abbrev S256x50176 : Shape := ⟨2, ![256, 50176]⟩
abbrev S50176x768 : Shape := ⟨2, ![50176, 768]⟩
abbrev S256x768 : Shape := ⟨2, ![256, 768]⟩
abbrev S1x768 : Shape := ⟨2, ![1, 768]⟩
abbrev S768x5 : Shape := ⟨2, ![768, 5]⟩
abbrev S256x5 : Shape := ⟨2, ![256, 5]⟩
abbrev S1x5 : Shape := ⟨2, ![1, 5]⟩

abbrev nBuf : Space → Nat
  | .hbm => 24
  | .vmem => 0
  | .smem => 0
  | _ => 0

abbrev bufTy : (tb : Table) → Fin (tcTables nBuf tb) → BufTy
  | .hbm, ⟨0, _⟩ => ⟨S256x1024x7x7, .f32⟩
  | .hbm, ⟨1, _⟩ => ⟨S768x50176, .f32⟩
  | .hbm, ⟨2, _⟩ => ⟨S768, .f32⟩
  | .hbm, ⟨3, _⟩ => ⟨S5x768, .f32⟩
  | .hbm, ⟨4, _⟩ => ⟨S5, .f32⟩
  | .hbm, ⟨5, _⟩ => ⟨S_, .f32⟩
  | .hbm, ⟨6, _⟩ => ⟨S256x1024, .f32⟩
  | .hbm, ⟨7, _⟩ => ⟨S256x1024x1x1, .f32⟩
  | .hbm, ⟨8, _⟩ => ⟨S256x1024x7x7, .f32⟩
  | .hbm, ⟨9, _⟩ => ⟨S256x1024x7x7, .f32⟩
  | .hbm, ⟨10, _⟩ => ⟨S256x50176, .f32⟩
  | .hbm, ⟨11, _⟩ => ⟨S50176x768, .f32⟩
  | .hbm, ⟨12, _⟩ => ⟨S256x768, .f32⟩
  | .hbm, ⟨13, _⟩ => ⟨S1x768, .f32⟩
  | .hbm, ⟨14, _⟩ => ⟨S256x768, .f32⟩
  | .hbm, ⟨15, _⟩ => ⟨S256x768, .f32⟩
  | .hbm, ⟨16, _⟩ => ⟨S_, .f32⟩
  | .hbm, ⟨17, _⟩ => ⟨S256x768, .f32⟩
  | .hbm, ⟨18, _⟩ => ⟨S256x768, .f32⟩
  | .hbm, ⟨19, _⟩ => ⟨S768x5, .f32⟩
  | .hbm, ⟨20, _⟩ => ⟨S256x5, .f32⟩
  | .hbm, ⟨21, _⟩ => ⟨S1x5, .f32⟩
  | .hbm, ⟨22, _⟩ => ⟨S256x5, .f32⟩
  | .hbm, ⟨23, _⟩ => ⟨S256x5, .f32⟩
  | _, _ => ⟨S256x1024x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S256x1024x7x7_S256x1024_d2_3 : S256x1024x7x7.ReducesTo [2, 3] S256x1024
  h_S_ : 0 < S_.numel
  bcast_S256x1024_S256x1024x1x1_0_1 : S256x1024.BroadcastsInDim S256x1024x1x1 (![0, 1] : Fin 2 → Fin S256x1024x1x1.rank)
  bcast_S256x1024x1x1_S256x1024x7x7_0_1_2_3 : S256x1024x1x1.BroadcastsInDim S256x1024x7x7 (![0, 1, 2, 3] : Fin 4 → Fin S256x1024x7x7.rank)
  shapeCasts_S256x1024x7x7_S256x50176 : S256x1024x7x7.ShapeCasts S256x50176
  transposes_S768x50176_S50176x768_1_0 : S768x50176.Transposes [1, 0] S50176x768
  bcast_S768_S1x768_1 : S768.BroadcastsInDim S1x768 (![1] : Fin 1 → Fin S1x768.rank)
  bcast_S1x768_S256x768_0_1 : S1x768.BroadcastsInDim S256x768 (![0, 1] : Fin 2 → Fin S256x768.rank)
  bcast_S_S256x768 : S_.BroadcastsInDim S256x768 (![] : Fin 0 → Fin S256x768.rank)
  transposes_S5x768_S768x5_1_0 : S5x768.Transposes [1, 0] S768x5
  bcast_S5_S1x5_1 : S5.BroadcastsInDim S1x5 (![1] : Fin 1 → Fin S1x5.rank)
  bcast_S1x5_S256x5_0_1 : S1x5.BroadcastsInDim S256x5 (![0, 1] : Fin 2 → Fin S256x5.rank)
  dot_S256x50176_S50176x768_S256x768_1_0_0_1_n_n_wf : DotDims.WF S256x50176 S50176x768 S256x768 [1] [0] [0] [1] [] []
  dot_S256x768_S768x5_S256x5_1_0_0_1_n_n_wf : DotDims.WF S256x768 S768x5 S256x5 [1] [0] [0] [1] [] []

variable [Facts₀]

def dot_S256x50176_S50176x768_S256x768_1_0_0_1_n_n : DotDims S256x50176 S50176x768 S256x768 where
  lhsContracting := [1]
  rhsContracting := [0]
  lhsNonContracting := [0]
  rhsNonContracting := [1]
  lhsBatch := []
  rhsBatch := []
  wf := dot_S256x50176_S50176x768_S256x768_1_0_0_1_n_n_wf
def dot_S256x768_S768x5_S256x5_1_0_0_1_n_n : DotDims S256x768 S768x5 S256x5 where
  lhsContracting := [1]
  rhsContracting := [0]
  lhsNonContracting := [0]
  rhsNonContracting := [1]
  lhsBatch := []
  rhsBatch := []
  wf := dot_S256x768_S768x5_S256x5_1_0_0_1_n_n_wf

class Facts : Prop extends Facts₀ where

variable [Facts]
-- ==== Proof.KRegion0.lean ====
/- The first region of the program (the channel-scaling kernel): its proof data and its body obligation. -/
import proofs.«182137_j42588895707592_2_alg».proof.Proof.Gen.Kernel.Launch
import proofs.«182137_j42588895707592_2_alg».proof.Proof.Gen.Kernel.Skeleton
import proofs.«182137_j42588895707592_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter, instantiated by the run
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2x1024x7x7 := Rect.unit (s := S2x1024x7x7) ![0, 0, 0, 0] S2x1024x7x7.size inb_S2x1024x7x7_S2x1024x7x7_0_0_0_0

/-! ## What the body leaves in the output window's buffer -/

/-- The output's staging buffer after the body, from the input block: its one store as a piece. -/
def out0_1 (x0 : Vec F S2x1024x7x7 .f32) : Vec F S2x1024x7x7 .f32 :=
  View.canon [⟨r0_0, k0_pay1 (View.ld x0 r0_0)⟩]

/-- The one store is of the whole buffer, so it covers it. -/
theorem cover0_1 (p0 : Vec F S2x1024x7x7 .f32) (y : S2x1024x7x7.Idx) :
    ∃ pc ∈ ([⟨r0_0, p0⟩] : List (View.Piece (Elt F) S2x1024x7x7 .f32)), y ∈ pc.1.set :=
  View.cover_of_tiled [⟨r0_0, p0⟩] S2x1024x7x7.size (by rfl) y

/-! ## The body's triple -/

set_option maxHeartbeats 1000000 in
/-- The kernel body on whole staging memrefs, the input's at read contents `x0` and the output's at anything, runs to
    the continuation holding the input's as it was and the output's at `out0_1 x0`: the output's old contents are
    loaded once and never used, then overwritten whole. -/
theorem sound_kernel0 (c : Dev nD) (E : Set ℕ) (i : grid0.Coords) (arg0 : Memref sig .tc .vmem S2x1024x7x7 .f32) (harg0 : arg0.IsWhole) (arg1 : Memref sig .tc .vmem S2x1024x7x7 .f32) (harg1 : arg1.IsWhole)
    (x0 : Vec F S2x1024x7x7 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__pcam_kernel i arg0 harg0 arg1 harg1) K := by
  simp only [cc0__pcam_kernel_eq_skeleton]; unfold cc0__pcam_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the first pipeline on core `c`: the arrays as the region finds them (`V`); after the body at
    point `t` the input's buffer at its block and the output's at `out0_1` of that block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Shared.lean ====
/-
  The second region: a [256, 768] accumulator kept in a scratch buffer across the 14 grid points. At point k the body
  reads block k (3584 columns) of the flattened maps and of the first weight matrix, and adds their product over those
  columns to the accumulator, which it first clears at point 0; at point 13 it goes on to add the first bias, rectify,
  multiply by the second weight matrix, add the second bias and store the [256, 5] result. So the body has three
  cases — the first point, the points between, the last point — told apart by two conditions on the point's number.
  Here: each window's block at a point, the two conditions in closed form, where the output window is left untouched,
  and the memrefs the body is called with.
-/
import proofs.«182137_j42588895707592_2_alg».proof.Proof.Gen.Kernel.Launch
import proofs.«182137_j42588895707592_2_alg».proof.Proof.Gen.Kernel.Skeleton
import proofs.«182137_j42588895707592_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched the
    block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": the body clears the accumulator. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 14 = 0 :=
  (by decide +kernel : ∀ t : Fin grid1.N, cond1_0 (grid1.coords t) ↔ t.val % 14 = 0)

/-- "This is the last point": the body finishes the layer and stores the result. -/
abbrev cond1_1 (i : grid1.Coords) : Prop := k1_cond2 i = 1#1
theorem hcond1_1 : ∀ t : Fin cfg1.N, cond1_1 (grid1.coords t) ↔ t.val % 14 = 13 :=
  (by decide +kernel : ∀ t : Fin grid1.N, cond1_1 (grid1.coords t) ↔ t.val % 14 = 13)

/-! ## Where the result window is left untouched -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last point nothing is stored into the result window, and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last point it is stored whole. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S256x3584 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x3584 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x5 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x5 .f32 := win1_5.stage (cfg1.slots t 5)
abbrev hs1_5 (t : Fin cfg1.N) : (ms1_5 t).IsWhole := hstage1_5 ((cfg1.slots t 5).cast nbuf1_5)
/-- The accumulator: a whole scratch buffer of the kernel's own. -/
abbrev scM1_0 : Memref sig .tc .vmem S256x768 .f32 := Memref.whole cc1_scratch0
/-- The views through which the accumulator's and the result window's contents are stated. -/
abbrev VS1_0 : View sig .tc .vmem S256x768 .f32 := scM1_0.view
abbrev VO1_5 : View sig .tc .vmem S256x5 .f32 := (Memref.whole cc1_stg5_0 : Memref sig .tc .vmem S256x5 .f32).view

/-! ## The region's invariant before the first point, opened -/

/-- The scoped buffers of the other region, each at some contents: they ride along untouched. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- What the region is entered with: those buffers, the accumulator at anything, the generator register at some state. -/
theorem PhiA1_split (c : Dev nD) :
    (Pipeline.ΦA spec1 c : sProp 𝕄) ⊢ iprop(rest1 (F := F) c ∗ (∃ d, owns (c : Thread nD τ) scM1_0 fullShare d) ∗ (∃ r, prngReg c r)) := by
  unfold Pipeline.ΦA rest1; rw [scopedRest1_eq]; simp only [scM1_0, owns_whole]
  iintro ⟨⟨H0, H1, H2, H3, HS⟩, Hg⟩
  isplitl [H0 H1 H2 H3]
  · isplitl [H0]; · iexact H0
    isplitl [H1]; · iexact H1
    isplitl [H2]; · iexact H2
    iexact H3
  isplitl [HS]; · iexact HS
  iexact Hg

theorem PhiA1_join (c : Dev nD) :
    iprop(rest1 (F := F) c ∗ (∃ d, owns (c : Thread nD τ) scM1_0 fullShare d) ∗ (∃ r, prngReg c r)) ⊢ (Pipeline.ΦA spec1 c : sProp 𝕄) := by
  unfold Pipeline.ΦA rest1; rw [scopedRest1_eq]; simp only [scM1_0, owns_whole]
  iintro ⟨⟨H0, H1, H2, H3⟩, HS, Hg⟩
  isplitr [Hg]
  · isplitl [H0]; · iexact H0
    isplitl [H1]; · iexact H1
    isplitl [H2]; · iexact H2
    isplitl [H3]; · iexact H3
    iexact HS
  iexact Hg

end Cert.Kernel.Hand

end
-- ==== Proof.KR1RunA.lean ====
/-
  The second region's body at the first point: the accumulator is cleared and the first block's product added to it.
  The pieces the accumulator ends with are found by running the body.
-/
import proofs.«182137_j42588895707592_2_alg».proof.Proof.KR1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the first condition holds, the second does not), on whole memrefs — the two blocked inputs at
    `x0`, `x1`, the accumulator at anything — the body runs to the continuation with the inputs as they were and the
    accumulator with its pieces `LS0` written; the other four memrefs are not touched. -/
noncomputable def kernelRun1_A (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : cond1_0 i) (hc1 : ¬cond1_1 i)
    (x0 : Vec F S256x3584 .f32) (x1 : Vec F S768x3584 .f32) :
    { LS0 : List (View.Piece (Elt F) S256x768 .f32) //
      ∀ (E : Set ℕ) (K : PUnit → sProp 𝕄),
        iprop(owns (c : Thread nD τ) arg1 fullShare x0 ∗ owns (c : Thread nD τ) arg2 fullShare x1 ∗ (∃ d, owns (c : Thread nD τ) arg7 fullShare d)
            ∗ (iprop(owns (c : Thread nD τ) arg1 fullShare x0 ∗ owns (c : Thread nD τ) arg2 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg1 harg1 arg2 harg2 arg3 harg3 arg4 harg4 arg5 harg5 arg6 harg6 arg7 harg7) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.KR1RunB.lean ====
/-
  The second region's body at a point that is neither the first nor the last: the block's product is added to the
  accumulator the point before left.
-/
import proofs.«182137_j42588895707592_2_alg».proof.Proof.KR1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point between (neither condition holds), on whole memrefs — the two blocked inputs at `x0`, `x1`, the
    accumulator at what the point before left, `xs0` — the body runs to the continuation with the inputs as they were
    and the accumulator with its pieces `LS0` written. -/
noncomputable def kernelRun1_B (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : ¬cond1_1 i)
    (x0 : Vec F S256x3584 .f32) (x1 : Vec F S768x3584 .f32) (xs0 : Vec F S256x768 .f32) :
    { LS0 : List (View.Piece (Elt F) S256x768 .f32) //
      ∀ (E : Set ℕ) (K : PUnit → sProp 𝕄),
        iprop(owns (c : Thread nD τ) arg1 fullShare x0 ∗ owns (c : Thread nD τ) arg2 fullShare x1 ∗ owns (c : Thread nD τ) arg7 fullShare xs0
            ∗ (iprop(owns (c : Thread nD τ) arg1 fullShare x0 ∗ owns (c : Thread nD τ) arg2 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg1 harg1 arg2 harg2 arg3 harg3 arg4 harg4 arg5 harg5 arg6 harg6 arg7 harg7) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.KR1RunC.lean ====
/-
  The second region's body at the last point: the last block's product is added to the accumulator, and the finished
  accumulator goes through the bias, the rectifier, the second product and the second bias into the result window.
-/
import proofs.«182137_j42588895707592_2_alg».proof.Proof.KR1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last point (the second condition holds, the first does not), on whole memrefs — the two blocked inputs at
    `x0`, `x1`, the bias row, the second weights and the second bias row at `x2`, `x3`, `x4`, the result window at
    anything, the accumulator at what the point before left, `xs0` — the body runs to the continuation with the inputs as
    they were, the result window with its pieces `L5` written and the accumulator with its pieces `LS0` written. -/
noncomputable def kernelRun1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) :
    Σ' (L5 : List (View.Piece (Elt F) S256x5 .f32)), { LS0 : List (View.Piece (Elt F) S256x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg1 harg1 arg2 harg2 arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.KRegion1.lean ====
/-
  The second region's proof data. After point n the accumulator holds what the body's case at n leaves in it, run on
  the point's blocks and on what point n − 1 left (nothing is needed of it at point 0, where it is cleared first); the
  result window holds what the last point's case stores, and is left untouched before. The region's invariant carries
  the accumulator at those contents from point to point.
-/
import proofs.«182137_j42588895707592_2_alg».proof.Proof.KR1RunA
import proofs.«182137_j42588895707592_2_alg».proof.Proof.KR1RunB
import proofs.«182137_j42588895707592_2_alg».proof.Proof.KR1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : cond1_0 i) (hc1 : ¬cond1_1 i)
    (x0 : Vec F S256x3584 .f32) (x1 : Vec F S768x3584 .f32) (y : S256x768.Idx) :
    ∃ pc ∈ (kernelRun1_A c i arg1 harg1 arg2 harg2 arg3 harg3 arg4 harg4 arg5 harg5 arg6 harg6 arg7 harg7 hc0 hc1 x0 x1).1, y ∈ pc.1.set :=
  View.cover_of_tiledL (kernelRun1_A c i arg1 harg1 arg2 harg2 arg3 harg3 arg4 harg4 arg5 harg5 arg6 harg6 arg7 harg7 hc0 hc1 x0 x1).1 S256x768.size (by sl_kernel_rfl) y

/-- The accumulator after the first point. -/
def sout1_A (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : cond1_0 i) (hc1 : ¬cond1_1 i)
    (x0 : Vec F S256x3584 .f32) (x1 : Vec F S768x3584 .f32) : Vec F S256x768 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1).1)

theorem scover1_B (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : ¬cond1_1 i)
    (x0 : Vec F S256x3584 .f32) (x1 : Vec F S768x3584 .f32) (xs0 : Vec F S256x768 .f32) (y : S256x768.Idx) :
    ∃ pc ∈ (kernelRun1_B c i arg1 harg1 arg2 harg2 arg3 harg3 arg4 harg4 arg5 harg5 arg6 harg6 arg7 harg7 hc0 hc1 x0 x1 xs0).1, y ∈ pc.1.set :=
  View.cover_of_tiledL (kernelRun1_B c i arg1 harg1 arg2 harg2 arg3 harg3 arg4 harg4 arg5 harg5 arg6 harg6 arg7 harg7 hc0 hc1 x0 x1 xs0).1 S256x768.size (by sl_kernel_rfl) y

/-- The accumulator after a point between. -/
def sout1_B (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : ¬cond1_1 i)
    (x0 : Vec F S256x3584 .f32) (x1 : Vec F S768x3584 .f32) (xs0 : Vec F S256x768 .f32) : Vec F S256x768 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 xs0).1)

theorem cover1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) (y : S256x5.Idx) :
    ∃ pc ∈ (kernelRun1_C c i arg1 harg1 arg2 harg2 arg3 harg3 arg4 harg4 arg5 harg5 arg6 harg6 arg7 harg7 hc0 hc1 x0 x1 x2 x3 x4 xs0).1, y ∈ pc.1.set :=
  View.cover_of_tiledL (kernelRun1_C c i arg1 harg1 arg2 harg2 arg3 harg3 arg4 harg4 arg5 harg5 arg6 harg6 arg7 harg7 hc0 hc1 x0 x1 x2 x3 x4 xs0).1 S256x5.size (by sl_kernel_rfl) y

/-- The result window after the last point. -/
def out1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) : Vec F S256x5 .f32 :=
  VO1_5.read (Elt F) (VO1_5.writes (Elt F) VO1_5.junk (kernelRun1_C c i arg1 harg1 arg2 harg2 arg3 harg3 arg4 harg4 arg5 harg5 arg6 harg6 arg7 harg7 hc0 hc1 x0 x1 x2 x3 x4 xs0).1)

theorem scover1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) (y : S256x768.Idx) :
    ∃ pc ∈ (kernelRun1_C c i arg1 harg1 arg2 harg2 arg3 harg3 arg4 harg4 arg5 harg5 arg6 harg6 arg7 harg7 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 hc0 hc1 x0 x1 x2 x3 x4 xs0).2.1 S256x768.size (by sl_kernel_rfl) y

/-- The accumulator after the last point. -/
def sout1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) : Vec F S256x768 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 x3 x4 xs0).2.1)

/-- What the result window reads where nothing has been stored into it: a placeholder nothing consults. -/
def junk5 : Vec F S256x5 .f32 := VO1_5.read (Elt F) VO1_5.junk

/-! ## The accumulation, point by point -/

theorem not_first {n : ℕ} (hn : n + 1 < cfg1.N) : ¬cond1_0 (grid1.coords (⟨n + 1, hn⟩ : Fin cfg1.N)) := fun h => by
  have h0 := (hcond1_0 ⟨n + 1, hn⟩).mp h
  have hN : n + 1 < 14 := lt_of_lt_of_eq hn (show cfg1.N = 14 from N_1)
  dsimp only at h0; omega

/-- The result window and the accumulator after the body at point `n`. -/
def outsAt1 (c : Dev nD) : (n : ℕ) → n < cfg1.N → Vec F S256x5 .f32 × Vec F S256x768 .f32
  | 0, hn => (junk5, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 14 = 13 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_first hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_first hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
    else
      (junk5, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_first hn) (fun h => h1 ((hcond1_1 ⟨n + 1, hn⟩).mp h)) (iblk1 V c 0 ⟨n + 1, hn⟩) (iblk1 V c 1 ⟨n + 1, hn⟩) (outsAt1 c n (Nat.lt_of_succ_lt hn)).2)

theorem first_of {t : Fin cfg1.N} (h0 : t.val % 14 = 0) : t.val = 0 := by
  have hN : t.val < 14 := lt_of_lt_of_eq t.isLt (show cfg1.N = 14 from N_1); omega

theorem outsAt1_A (c : Dev nD) (t : Fin cfg1.N) (h0 : t.val % 14 = 0) (h1 : ¬t.val % 14 = 13) :
    outsAt1 V c t.val t.isLt = (junk5, sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd (first_of (t := ⟨n + 1, hn⟩) h0) (Nat.succ_ne_zero n)

theorem outsAt1_B (c : Dev nD) (t : Fin cfg1.N) (h0 : ¬t.val % 14 = 0) (h1 : ¬t.val % 14 = 13) :
    outsAt1 V c t.val t.isLt = (junk5, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt1_C (c : Dev nD) (t : Fin cfg1.N) (h0 : ¬t.val % 14 = 0) (h1 : t.val % 14 = 13) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The invariant -/

/-- Before point `n`: at the first point what the region is entered with; afterwards the other region's buffers, the
    accumulator at what point `n − 1` left, and the generator register at some state. -/
def PhiS (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(rest1 (F := F) c ∗ owns (c : Thread nD τ) scM1_0 fullShare ((outsAt1 V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's number says which case it is in; the
    invariant hands the body the accumulator at what the point before left (at anything at the first point) and takes
    it back at this point's contents; the result window is handed back untouched before the last point and holds the
    stored result after it; the other region's buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 14 := lt_of_lt_of_eq t.isLt (show cfg1.N = 14 from N_1)
  by_cases h0 : t.val % 14 = 0
  · have h1 : ¬t.val % 14 = 13 := by omega
    have hz : t.val = 0 := first_of h0
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A; (try dsimp only)
    rw [PhiS_castSucc V c t, PhiS_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA1_split (F := F) c) $$ HΦ
    icases HΦ' with ⟨Hrest, HS0, Hg⟩
    iapply ((kernelRun1_A c (grid1.coords t) _ _ _ _ _ _ _ _ _ _ _ _ _ _ ((hcond1_0 t).mpr h0) (fun h => h1 ((hcond1_1 t).mp h)) (iblk1 V c 0 t) (iblk1 V c 1 t)).2 Set.univ _)
    isplitl [H0]; · iexact H0
    isplitl [H1]; · iexact H1
    isplitl [HS0]; · iexact HS0
    iintro ⟨H0, H1, ⟨%es0, HS0⟩⟩
    isplitl [Hrest HS0 Hg]
    · isplitl [Hrest]; · iexact Hrest
      isplitl [HS0]
      · unfold owns; iexists _; isplitr
        swap; · iexact HS0
        ipureintro; exact View.read_writes_of_cover _ _ _ _ _ (scover1_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 14 = 13
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C sout1_C; (try dsimp only)
      rw [PhiS_castSucc V c t, PhiS_pos V c _ _ hz]
      iintro ⟨⟨Hrest, HS0, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      rw [PhiS_castSucc V c t, PhiS_pos V c _ _ hz]
      iintro ⟨⟨Hrest, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 14 := N_1; omega)]
  iintro ⟨Hrest, HS0, Hg⟩
  iapply (PhiA1_join (F := F) c)
  isplitl [Hrest]; · iexact Hrest
  isplitl [HS0]; · iexists _; iexact HS0
  iexact Hg

end Cert.Kernel.Hand

end
-- ==== Proof.KRun.lean ====
/- The run of the program: the contents of every buffer outside the kernels' scopes at each boundary between its three
   segments (the first kernel, the three reshapes, the second kernel), the segments composed from the launch to the
   return, and what every final memory holds. -/
import proofs.«182137_j42588895707592_2_alg».proof.Proof.Gen.Kernel.Launch
import proofs.«182137_j42588895707592_2_alg».proof.Proof.Gen.Kernel.Skeleton
import proofs.«182137_j42588895707592_2_alg».proof.Proof.Gen.Kernel.Points
import proofs.«182137_j42588895707592_2_alg».proof.Proof.Gen.Kernel.Regions
import proofs.«182137_j42588895707592_2_alg».proof.Proof.KRegion0
import proofs.«182137_j42588895707592_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => m (c, b)
/-- The same read at the core's references (what the first kernel's proof data take). -/
abbrev V0 : (c : Dev nD) → (b : Ref sig .tc) → Buf (Elt F) ((c : Thread nD τ).loc b) := fun c b => W0 m c b
/-- After the first kernel: its arrays at what the pipeline leaves (the input as entered, the output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the core's references (the first kernel's exit contents). -/
abbrev V1 : (c : Dev nD) → (b : Ref sig .tc) → Buf (Elt F) ((c : Thread nD τ).loc b) := fun c b => W1 m c b
/-- At the first kernel's exit each of its arrays holds what the pipeline leaves and every other buffer what it held
    at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the three reshapes (the second kernel's entry). -/
abbrev W2 : Dev nD → Valuation τ sig (Elt F) := fun c => StableHlo.after hostOps1 (W1 m c)
/-- The same read at the core's references (what the second kernel's proof data take). -/
abbrev V2 : (c : Dev nD) → (b : Ref sig .tc) → Buf (Elt F) ((c : Thread nD τ).loc b) := fun c b => W2 m c b
/-- A buffer no reshape writes keeps its contents. -/
theorem W2_of (c : Dev nD) (r : Ref sig .tc) (h : r ∉ (hostOps1_W : List (Ref sig .tc))) :
    W2 m c (Proc.devRef .tc r) = W1 m c (Proc.devRef .tc r) :=
  StableHlo.after_of_writes_sub hostOps1 _ hostOps1_writes h
/-- After the second kernel: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the core's references (the second kernel's exit contents). -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no reshape and no kernel writes one (a kernel reads it through an input window
    or does not touch it), so the fold at an argument's buffer walks back to the launch memory -/

/-- The first argument is the first kernel's input window; the reshapes and the second kernel do not touch it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
/-- The second argument is an input window of the second kernel; nothing before it touches it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2 m) c).arrAt_in 1 rfl _).trans (A_eq1 (V2 m) c 1))
    _ = W1 m c (Proc.devRef .tc main_arg1) := W2_of m c main_arg1 (by decide)
    _ = W0 m c (Proc.devRef .tc main_arg1) := W1_of_ne m c main_arg1 (by decide)
    _ = m ((c : Thread nD τ).loc main_arg1) := rfl
/-- The third argument is read by a reshape only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl
/-- The fourth argument is an input window of the second kernel; nothing before it touches it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 3).trans (((dat1 (V2 m) c).arrAt_in 3 rfl _).trans (A_eq1 (V2 m) c 3))
    _ = W1 m c (Proc.devRef .tc main_arg3) := W2_of m c main_arg3 (by decide)
    _ = W0 m c (Proc.devRef .tc main_arg3) := W1_of_ne m c main_arg3 (by decide)
    _ = m ((c : Thread nD τ).loc main_arg3) := rfl
/-- The fifth argument is read by a reshape only. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of m c main_arg4 (by decide)
    _ = W0 m c (Proc.devRef .tc main_arg4) := W1_of_ne m c main_arg4 (by decide)
    _ = m ((c : Thread nD τ).loc main_arg4) := rfl

/-! ## The proof data family and the thread state -/

/-- The prefetched tables' admissible contents: no pipeline has a table. -/
abbrev adm : (p : Fin 2) → (pcfgs (F := F) p).Adm := fun p => (cfgs p).toPCfg_adm
/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A line of host operations as a segment over the buffers outside the kernels' scopes, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reference of the core outside the kernels' scopes is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every such buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The first kernel over the thread state: entered from every buffer at the launch contents, left at `W1`. Its arrays
    are split out of the buffers and put back at the exit contents; the generator register goes into the invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every buffer at `W2`, left at `W3` (what the launch reads at
    the end). Its invariant carries the accumulator between points; at the two ends it is the scoped rest and the
    generator register. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the first kernel, the reshapes from its exit contents, the second kernel. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the cores terminates, nothing
    faulting, and every final memory holds, at every buffer outside the kernels' scopes, the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

/-- The program runs and its five argument arrays end holding their launch contents, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (run_all m ρ).mono fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩

end Cert.Kernel.Hand

end
-- ==== Proof.KIRegion0.lean ====
/- The first region of the program (the channel-scaling kernel): its proof data and its body obligation. -/
import proofs.«182137_j42588895707592_2_alg».proof.Proof.Gen.KernelIdeal.Launch
import proofs.«182137_j42588895707592_2_alg».proof.Proof.Gen.KernelIdeal.Skeleton
import proofs.«182137_j42588895707592_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter, instantiated by the run
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2x1024x7x7 := Rect.unit (s := S2x1024x7x7) ![0, 0, 0, 0] S2x1024x7x7.size inb_S2x1024x7x7_S2x1024x7x7_0_0_0_0

/-! ## What the body leaves in the output window's buffer -/

/-- The output's staging buffer after the body, from the input block: its one store as a piece. -/
def out0_1 (x0 : Vec F S2x1024x7x7 .f32) : Vec F S2x1024x7x7 .f32 :=
  View.canon [⟨r0_0, k0_pay1 (View.ld x0 r0_0)⟩]

/-- The one store is of the whole buffer, so it covers it. -/
theorem cover0_1 (p0 : Vec F S2x1024x7x7 .f32) (y : S2x1024x7x7.Idx) :
    ∃ pc ∈ ([⟨r0_0, p0⟩] : List (View.Piece (Elt F) S2x1024x7x7 .f32)), y ∈ pc.1.set :=
  View.cover_of_tiled [⟨r0_0, p0⟩] S2x1024x7x7.size (by rfl) y

/-! ## The body's triple -/

set_option maxHeartbeats 1000000 in
/-- The kernel body on whole staging memrefs, the input's at read contents `x0` and the output's at anything, runs to
    the continuation holding the input's as it was and the output's at `out0_1 x0`: the output's old contents are
    loaded once and never used, then overwritten whole. -/
theorem sound_kernel0 (c : Dev nD) (E : Set ℕ) (i : grid0.Coords) (arg0 : Memref sig .tc .vmem S2x1024x7x7 .f32) (harg0 : arg0.IsWhole) (arg1 : Memref sig .tc .vmem S2x1024x7x7 .f32) (harg1 : arg1.IsWhole)
    (x0 : Vec F S2x1024x7x7 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__pcam_kernel i arg0 harg0 arg1 harg1) K := by
  simp only [cc0__pcam_kernel_eq_skeleton]; unfold cc0__pcam_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the first pipeline on core `c`: the arrays as the region finds them (`V`); after the body at
    point `t` the input's buffer at its block and the output's at `out0_1` of that block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIR1Shared.lean ====
/-
  The second region: a [256, 768] accumulator kept in a scratch buffer across the 14 grid points. At point k the body
  reads block k (3584 columns) of the flattened maps and of the first weight matrix, and adds their product over those
  columns to the accumulator, which it first clears at point 0; at point 13 it goes on to add the first bias, rectify,
  multiply by the second weight matrix, add the second bias and store the [256, 5] result. So the body has three
  cases — the first point, the points between, the last point — told apart by two conditions on the point's number.
  Here: each window's block at a point, the two conditions in closed form, where the output window is left untouched,
  and the memrefs the body is called with.
-/
import proofs.«182137_j42588895707592_2_alg».proof.Proof.Gen.KernelIdeal.Launch
import proofs.«182137_j42588895707592_2_alg».proof.Proof.Gen.KernelIdeal.Skeleton
import proofs.«182137_j42588895707592_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (where it is not fetched the
    block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first point": the body clears the accumulator. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 14 = 0 :=
  (by decide +kernel : ∀ t : Fin grid1.N, cond1_0 (grid1.coords t) ↔ t.val % 14 = 0)

/-- "This is the last point": the body finishes the layer and stores the result. -/
abbrev cond1_1 (i : grid1.Coords) : Prop := k1_cond2 i = 1#1
theorem hcond1_1 : ∀ t : Fin cfg1.N, cond1_1 (grid1.coords t) ↔ t.val % 14 = 13 :=
  (by decide +kernel : ∀ t : Fin grid1.N, cond1_1 (grid1.coords t) ↔ t.val % 14 = 13)

/-! ## Where the result window is left untouched -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Before the last point nothing is stored into the result window, and it is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last point it is stored whole. -/
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S256x3584 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x3584 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x5 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x5 .f32 := win1_5.stage (cfg1.slots t 5)
abbrev hs1_5 (t : Fin cfg1.N) : (ms1_5 t).IsWhole := hstage1_5 ((cfg1.slots t 5).cast nbuf1_5)
/-- The accumulator: a whole scratch buffer of the kernel's own. -/
abbrev scM1_0 : Memref sig .tc .vmem S256x768 .f32 := Memref.whole cc1_scratch0
/-- The views through which the accumulator's and the result window's contents are stated. -/
abbrev VS1_0 : View sig .tc .vmem S256x768 .f32 := scM1_0.view
abbrev VO1_5 : View sig .tc .vmem S256x5 .f32 := (Memref.whole cc1_stg5_0 : Memref sig .tc .vmem S256x5 .f32).view

/-! ## The region's invariant before the first point, opened -/

/-- The scoped buffers of the other region, each at some contents: they ride along untouched. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- What the region is entered with: those buffers, the accumulator at anything, the generator register at some state. -/
theorem PhiA1_split (c : Dev nD) :
    (Pipeline.ΦA spec1 c : sProp 𝕄) ⊢ iprop(rest1 (F := F) c ∗ (∃ d, owns (c : Thread nD τ) scM1_0 fullShare d) ∗ (∃ r, prngReg c r)) := by
  unfold Pipeline.ΦA rest1; rw [scopedRest1_eq]; simp only [scM1_0, owns_whole]
  iintro ⟨⟨H0, H1, H2, H3, HS⟩, Hg⟩
  isplitl [H0 H1 H2 H3]
  · isplitl [H0]; · iexact H0
    isplitl [H1]; · iexact H1
    isplitl [H2]; · iexact H2
    iexact H3
  isplitl [HS]; · iexact HS
  iexact Hg

theorem PhiA1_join (c : Dev nD) :
    iprop(rest1 (F := F) c ∗ (∃ d, owns (c : Thread nD τ) scM1_0 fullShare d) ∗ (∃ r, prngReg c r)) ⊢ (Pipeline.ΦA spec1 c : sProp 𝕄) := by
  unfold Pipeline.ΦA rest1; rw [scopedRest1_eq]; simp only [scM1_0, owns_whole]
  iintro ⟨⟨H0, H1, H2, H3⟩, HS, Hg⟩
  isplitr [Hg]
  · isplitl [H0]; · iexact H0
    isplitl [H1]; · iexact H1
    isplitl [H2]; · iexact H2
    isplitl [H3]; · iexact H3
    iexact HS
  iexact Hg

end Cert.KernelIdeal.Hand

end
-- ==== Proof.KIR1RunA.lean ====
/-
  The second region's body at the first point: the accumulator is cleared and the first block's product added to it.
  The pieces the accumulator ends with are found by running the body.
-/
import proofs.«182137_j42588895707592_2_alg».proof.Proof.KIR1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point (the first condition holds, the second does not), on whole memrefs — the two blocked inputs at
    `x0`, `x1`, the accumulator at anything — the body runs to the continuation with the inputs as they were and the
    accumulator with its pieces `LS0` written; the other four memrefs are not touched. -/
noncomputable def kernelRun1_A (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : cond1_0 i) (hc1 : ¬cond1_1 i)
    (x0 : Vec F S256x3584 .f32) (x1 : Vec F S768x3584 .f32) :
    { LS0 : List (View.Piece (Elt F) S256x768 .f32) //
      ∀ (E : Set ℕ) (K : PUnit → sProp 𝕄),
        iprop(owns (c : Thread nD τ) arg1 fullShare x0 ∗ owns (c : Thread nD τ) arg2 fullShare x1 ∗ (∃ d, owns (c : Thread nD τ) arg7 fullShare d)
            ∗ (iprop(owns (c : Thread nD τ) arg1 fullShare x0 ∗ owns (c : Thread nD τ) arg2 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg1 harg1 arg2 harg2 arg3 harg3 arg4 harg4 arg5 harg5 arg6 harg6 arg7 harg7) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KIR1RunB.lean ====
/-
  The second region's body at a point that is neither the first nor the last: the block's product is added to the
  accumulator the point before left.
-/
import proofs.«182137_j42588895707592_2_alg».proof.Proof.KIR1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point between (neither condition holds), on whole memrefs — the two blocked inputs at `x0`, `x1`, the
    accumulator at what the point before left, `xs0` — the body runs to the continuation with the inputs as they were
    and the accumulator with its pieces `LS0` written. -/
noncomputable def kernelRun1_B (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : ¬cond1_1 i)
    (x0 : Vec F S256x3584 .f32) (x1 : Vec F S768x3584 .f32) (xs0 : Vec F S256x768 .f32) :
    { LS0 : List (View.Piece (Elt F) S256x768 .f32) //
      ∀ (E : Set ℕ) (K : PUnit → sProp 𝕄),
        iprop(owns (c : Thread nD τ) arg1 fullShare x0 ∗ owns (c : Thread nD τ) arg2 fullShare x1 ∗ owns (c : Thread nD τ) arg7 fullShare xs0
            ∗ (iprop(owns (c : Thread nD τ) arg1 fullShare x0 ∗ owns (c : Thread nD τ) arg2 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg1 harg1 arg2 harg2 arg3 harg3 arg4 harg4 arg5 harg5 arg6 harg6 arg7 harg7) K } := by
  refine ⟨?_, fun E K => ?run⟩
  case run =>
    simp only [cc1__mm_kernel_eq_skeleton]; unfold cc1__mm_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KIR1RunC.lean ====
/-
  The second region's body at the last point: the last block's product is added to the accumulator, and the finished
  accumulator goes through the bias, the rectifier, the second product and the second bias into the result window.
-/
import proofs.«182137_j42588895707592_2_alg».proof.Proof.KIR1Shared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- At the last point (the second condition holds, the first does not), on whole memrefs — the two blocked inputs at
    `x0`, `x1`, the bias row, the second weights and the second bias row at `x2`, `x3`, `x4`, the result window at
    anything, the accumulator at what the point before left, `xs0` — the body runs to the continuation with the inputs as
    they were, the result window with its pieces `L5` written and the accumulator with its pieces `LS0` written. -/
noncomputable def kernelRun1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) :
    Σ' (L5 : List (View.Piece (Elt F) S256x5 .f32)), { LS0 : List (View.Piece (Elt F) S256x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg1 harg1 arg2 harg2 arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KIRegion1.lean ====
/-
  The second region's proof data. After point n the accumulator holds what the body's case at n leaves in it, run on
  the point's blocks and on what point n − 1 left (nothing is needed of it at point 0, where it is cleared first); the
  result window holds what the last point's case stores, and is left untouched before. The region's invariant carries
  the accumulator at those contents from point to point.
-/
import proofs.«182137_j42588895707592_2_alg».proof.Proof.KIR1RunA
import proofs.«182137_j42588895707592_2_alg».proof.Proof.KIR1RunB
import proofs.«182137_j42588895707592_2_alg».proof.Proof.KIR1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

theorem scover1_A (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : cond1_0 i) (hc1 : ¬cond1_1 i)
    (x0 : Vec F S256x3584 .f32) (x1 : Vec F S768x3584 .f32) (y : S256x768.Idx) :
    ∃ pc ∈ (kernelRun1_A c i arg1 harg1 arg2 harg2 arg3 harg3 arg4 harg4 arg5 harg5 arg6 harg6 arg7 harg7 hc0 hc1 x0 x1).1, y ∈ pc.1.set :=
  View.cover_of_tiledL (kernelRun1_A c i arg1 harg1 arg2 harg2 arg3 harg3 arg4 harg4 arg5 harg5 arg6 harg6 arg7 harg7 hc0 hc1 x0 x1).1 S256x768.size (by sl_kernel_rfl) y

/-- The accumulator after the first point. -/
def sout1_A (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : cond1_0 i) (hc1 : ¬cond1_1 i)
    (x0 : Vec F S256x3584 .f32) (x1 : Vec F S768x3584 .f32) : Vec F S256x768 .f32 :=
  VS1_0.read (Elt F) (VS1_0.writes (Elt F) VS1_0.junk (kernelRun1_A c i arg1 harg1 arg2 harg2 arg3 harg3 arg4 harg4 arg5 harg5 arg6 harg6 arg7 harg7 hc0 hc1 x0 x1).1)

theorem scover1_B (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : ¬cond1_1 i)
    (x0 : Vec F S256x3584 .f32) (x1 : Vec F S768x3584 .f32) (xs0 : Vec F S256x768 .f32) (y : S256x768.Idx) :
    ∃ pc ∈ (kernelRun1_B c i arg1 harg1 arg2 harg2 arg3 harg3 arg4 harg4 arg5 harg5 arg6 harg6 arg7 harg7 hc0 hc1 x0 x1 xs0).1, y ∈ pc.1.set :=
  View.cover_of_tiledL (kernelRun1_B c i arg1 harg1 arg2 harg2 arg3 harg3 arg4 harg4 arg5 harg5 arg6 harg6 arg7 harg7 hc0 hc1 x0 x1 xs0).1 S256x768.size (by sl_kernel_rfl) y

/-- The accumulator after a point between. -/
def sout1_B (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : ¬cond1_1 i)
    (x0 : Vec F S256x3584 .f32) (x1 : Vec F S768x3584 .f32) (xs0 : Vec F S256x768 .f32) : Vec F S256x768 .f32 :=
  VS1_0.read (Elt F) (VS1_0.writes (Elt F) VS1_0.junk (kernelRun1_B c i arg1 harg1 arg2 harg2 arg3 harg3 arg4 harg4 arg5 harg5 arg6 harg6 arg7 harg7 hc0 hc1 x0 x1 xs0).1)

theorem cover1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) (y : S256x5.Idx) :
    ∃ pc ∈ (kernelRun1_C c i arg1 harg1 arg2 harg2 arg3 harg3 arg4 harg4 arg5 harg5 arg6 harg6 arg7 harg7 hc0 hc1 x0 x1 x2 x3 x4 xs0).1, y ∈ pc.1.set :=
  View.cover_of_tiledL (kernelRun1_C c i arg1 harg1 arg2 harg2 arg3 harg3 arg4 harg4 arg5 harg5 arg6 harg6 arg7 harg7 hc0 hc1 x0 x1 x2 x3 x4 xs0).1 S256x5.size (by sl_kernel_rfl) y

/-- The result window after the last point. -/
def out1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) : Vec F S256x5 .f32 :=
  VO1_5.read (Elt F) (VO1_5.writes (Elt F) VO1_5.junk (kernelRun1_C c i arg1 harg1 arg2 harg2 arg3 harg3 arg4 harg4 arg5 harg5 arg6 harg6 arg7 harg7 hc0 hc1 x0 x1 x2 x3 x4 xs0).1)

theorem scover1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) (y : S256x768.Idx) :
    ∃ pc ∈ (kernelRun1_C c i arg1 harg1 arg2 harg2 arg3 harg3 arg4 harg4 arg5 harg5 arg6 harg6 arg7 harg7 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 hc0 hc1 x0 x1 x2 x3 x4 xs0).2.1 S256x768.size (by sl_kernel_rfl) y

/-- The accumulator after the last point. -/
def sout1_C (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) : Vec F S256x768 .f32 :=
  VS1_0.read (Elt F) (VS1_0.writes (Elt F) VS1_0.junk (kernelRun1_C c i arg1 harg1 arg2 harg2 arg3 harg3 arg4 harg4 arg5 harg5 arg6 harg6 arg7 harg7 hc0 hc1 x0 x1 x2 x3 x4 xs0).2.1)

/-- What the result window reads where nothing has been stored into it: a placeholder nothing consults. -/
def junk5 : Vec F S256x5 .f32 := VO1_5.read (Elt F) VO1_5.junk

/-! ## The accumulation, point by point -/

theorem not_first {n : ℕ} (hn : n + 1 < cfg1.N) : ¬cond1_0 (grid1.coords (⟨n + 1, hn⟩ : Fin cfg1.N)) := fun h => by
  have h0 := (hcond1_0 ⟨n + 1, hn⟩).mp h
  have hN : n + 1 < 14 := lt_of_lt_of_eq hn (show cfg1.N = 14 from N_1)
  dsimp only at h0; omega

/-- The result window and the accumulator after the body at point `n`. -/
def outsAt1 (c : Dev nD) : (n : ℕ) → n < cfg1.N → Vec F S256x5 .f32 × Vec F S256x768 .f32
  | 0, hn => (junk5, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h1 : (n + 1) % 14 = 13 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_first hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_first hn) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
    else
      (junk5, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (not_first hn) (fun h => h1 ((hcond1_1 ⟨n + 1, hn⟩).mp h)) (iblk1 V c 0 ⟨n + 1, hn⟩) (iblk1 V c 1 ⟨n + 1, hn⟩) (outsAt1 c n (Nat.lt_of_succ_lt hn)).2)

theorem first_of {t : Fin cfg1.N} (h0 : t.val % 14 = 0) : t.val = 0 := by
  have hN : t.val < 14 := lt_of_lt_of_eq t.isLt (show cfg1.N = 14 from N_1); omega

theorem outsAt1_A (c : Dev nD) (t : Fin cfg1.N) (h0 : t.val % 14 = 0) (h1 : ¬t.val % 14 = 13) :
    outsAt1 V c t.val t.isLt = (junk5, sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd (first_of (t := ⟨n + 1, hn⟩) h0) (Nat.succ_ne_zero n)

theorem outsAt1_B (c : Dev nD) (t : Fin cfg1.N) (h0 : ¬t.val % 14 = 0) (h1 : ¬t.val % 14 = 13) :
    outsAt1 V c t.val t.isLt = (junk5, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd (Nat.zero_mod _) h0
  | succ n => exact (dif_neg h1).trans rfl

theorem outsAt1_C (c : Dev nD) (t : Fin cfg1.N) (h0 : ¬t.val % 14 = 0) (h1 : t.val % 14 = 13) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact absurd (Nat.zero_mod _) h0
  | succ n => exact (dif_pos h1).trans rfl

/-! ## The invariant -/

/-- Before point `n`: at the first point what the region is entered with; afterwards the other region's buffers, the
    accumulator at what point `n − 1` left, and the generator register at some state. -/
def PhiS (c : Dev nD) : (n : ℕ) → n ≤ cfg1.N → sProp 𝕄
  | 0, _ => Pipeline.ΦA spec1 c
  | n + 1, hn => iprop(rest1 (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(rest1 (F := F) c ∗ owns (c : Thread nD τ) scM1_0 fullShare ((outsAt1 V c (n - 1) (by omega)).2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's number says which case it is in; the
    invariant hands the body the accumulator at what the point before left (at anything at the first point) and takes
    it back at this point's contents; the result window is handed back untouched before the last point and holds the
    stored result after it; the other region's buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 14 := lt_of_lt_of_eq t.isLt (show cfg1.N = 14 from N_1)
  by_cases h0 : t.val % 14 = 0
  · have h1 : ¬t.val % 14 = 13 := by omega
    have hz : t.val = 0 := first_of h0
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A; (try dsimp only)
    rw [PhiS_castSucc V c t, PhiS_zero V c _ _ hz]
    iintro ⟨HΦ, Ho, ⟨%d0, H0⟩, ⟨%d1, H1⟩, ⟨%d2, H2⟩, ⟨%d3, H3⟩, ⟨%d4, H4⟩, ⟨%d5, H5⟩⟩
    ihave HΦ' := (PhiA1_split (F := F) c) $$ HΦ
    icases HΦ' with ⟨Hrest, HS0, Hg⟩
    iapply ((kernelRun1_A c (grid1.coords t) _ _ _ _ _ _ _ _ _ _ _ _ _ _ ((hcond1_0 t).mpr h0) (fun h => h1 ((hcond1_1 t).mp h)) (iblk1 V c 0 t) (iblk1 V c 1 t)).2 Set.univ _)
    isplitl [H0]; · iexact H0
    isplitl [H1]; · iexact H1
    isplitl [HS0]; · iexact HS0
    iintro ⟨H0, H1, ⟨%es0, HS0⟩⟩
    isplitl [Hrest HS0 Hg]
    · isplitl [Hrest]; · iexact Hrest
      isplitl [HS0]
      · unfold owns; iexists _; isplitr
        swap; · iexact HS0
        ipureintro; exact View.read_writes_of_cover _ _ _ _ _ (scover1_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 14 = 13
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C sout1_C; (try dsimp only)
      rw [PhiS_castSucc V c t, PhiS_pos V c _ _ hz]
      iintro ⟨⟨Hrest, HS0, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      rw [PhiS_castSucc V c t, PhiS_pos V c _ _ hz]
      iintro ⟨⟨Hrest, HS0, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [Hrest HS0 Hg]
      · isplitl [Hrest]; · iexact Hrest
        isplitl [HS0]
        · unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the accumulator's contents are forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 14 := N_1; omega)]
  iintro ⟨Hrest, HS0, Hg⟩
  iapply (PhiA1_join (F := F) c)
  isplitl [Hrest]; · iexact Hrest
  isplitl [HS0]; · iexists _; iexact HS0
  iexact Hg

end Cert.KernelIdeal.Hand

end
-- ==== Proof.KIRun.lean ====
/- The run of the program: the contents of every buffer outside the kernels' scopes at each boundary between its three
   segments (the first kernel, the three reshapes, the second kernel), the segments composed from the launch to the
   return, and what every final memory holds. -/
import proofs.«182137_j42588895707592_2_alg».proof.Proof.Gen.KernelIdeal.Launch
import proofs.«182137_j42588895707592_2_alg».proof.Proof.Gen.KernelIdeal.Skeleton
import proofs.«182137_j42588895707592_2_alg».proof.Proof.Gen.KernelIdeal.Points
import proofs.«182137_j42588895707592_2_alg».proof.Proof.Gen.KernelIdeal.Regions
import proofs.«182137_j42588895707592_2_alg».proof.Proof.KIRegion0
import proofs.«182137_j42588895707592_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => m (c, b)
/-- The same read at the core's references (what the first kernel's proof data take). -/
abbrev V0 : (c : Dev nD) → (b : Ref sig .tc) → Buf (Elt F) ((c : Thread nD τ).loc b) := fun c b => W0 m c b
/-- After the first kernel: its arrays at what the pipeline leaves (the input as entered, the output's write-backs
    folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the core's references (the first kernel's exit contents). -/
abbrev V1 : (c : Dev nD) → (b : Ref sig .tc) → Buf (Elt F) ((c : Thread nD τ).loc b) := fun c b => W1 m c b
/-- At the first kernel's exit each of its arrays holds what the pipeline leaves and every other buffer what it held
    at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the three reshapes (the second kernel's entry). -/
abbrev W2 : Dev nD → Valuation τ sig (Elt F) := fun c => StableHlo.after hostOps1 (W1 m c)
/-- The same read at the core's references (what the second kernel's proof data take). -/
abbrev V2 : (c : Dev nD) → (b : Ref sig .tc) → Buf (Elt F) ((c : Thread nD τ).loc b) := fun c b => W2 m c b
/-- A buffer no reshape writes keeps its contents. -/
theorem W2_of (c : Dev nD) (r : Ref sig .tc) (h : r ∉ (hostOps1_W : List (Ref sig .tc))) :
    W2 m c (Proc.devRef .tc r) = W1 m c (Proc.devRef .tc r) :=
  StableHlo.after_of_writes_sub hostOps1 _ hostOps1_writes h
/-- After the second kernel: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- The same read at the core's references (the second kernel's exit contents). -/
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched: no reshape and no kernel writes one (a kernel reads it through an input window
    or does not touch it), so the fold at an argument's buffer walks back to the launch memory -/

/-- The first argument is the first kernel's input window; the reshapes and the second kernel do not touch it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of m c main_arg0 (by decide)
    _ = W0 m c (Proc.devRef .tc main_arg0) := (W1_arr m c 0).trans (((dat0 (V0 m) c).arrAt_in 0 rfl _).trans (A_eq0 (V0 m) c 0))
    _ = m ((c : Thread nD τ).loc main_arg0) := rfl
/-- The second argument is an input window of the second kernel; nothing before it touches it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 1).trans (((dat1 (V2 m) c).arrAt_in 1 rfl _).trans (A_eq1 (V2 m) c 1))
    _ = W1 m c (Proc.devRef .tc main_arg1) := W2_of m c main_arg1 (by decide)
    _ = W0 m c (Proc.devRef .tc main_arg1) := W1_of_ne m c main_arg1 (by decide)
    _ = m ((c : Thread nD τ).loc main_arg1) := rfl
/-- The third argument is read by a reshape only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of m c main_arg2 (by decide)
    _ = W0 m c (Proc.devRef .tc main_arg2) := W1_of_ne m c main_arg2 (by decide)
    _ = m ((c : Thread nD τ).loc main_arg2) := rfl
/-- The fourth argument is an input window of the second kernel; nothing before it touches it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 3).trans (((dat1 (V2 m) c).arrAt_in 3 rfl _).trans (A_eq1 (V2 m) c 3))
    _ = W1 m c (Proc.devRef .tc main_arg3) := W2_of m c main_arg3 (by decide)
    _ = W0 m c (Proc.devRef .tc main_arg3) := W1_of_ne m c main_arg3 (by decide)
    _ = m ((c : Thread nD τ).loc main_arg3) := rfl
/-- The fifth argument is read by a reshape only. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of m c main_arg4 (by decide)
    _ = W0 m c (Proc.devRef .tc main_arg4) := W1_of_ne m c main_arg4 (by decide)
    _ = m ((c : Thread nD τ).loc main_arg4) := rfl

/-! ## The proof data family and the thread state -/

/-- The prefetched tables' admissible contents: no pipeline has a table. -/
abbrev adm : (p : Fin 2) → (pcfgs (F := F) p).Adm := fun p => (cfgs p).toPCfg_adm
/-- Every pipeline's proof data, each at its kernel's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, which is nothing. -/
abbrev R (c : Dev nD) : sProp 𝕄 := iprop((∃ r, prngReg c r) ∗ ∃ W, owes (c : Thread nD τ) (0 : CellTallies nD τ sig Unit) W)
/-- A line of host operations as a segment over the buffers outside the kernels' scopes, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reference of the core outside the kernels' scopes is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every such buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The kernels as segments -/

set_option backward.isDefEq.respectTransparency.types false in
/-- The first kernel over the thread state: entered from every buffer at the launch contents, left at `W1`. Its arrays
    are split out of the buffers and put back at the exit contents; the generator register goes into the invariant and
    comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun w => A_eq0 (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from every buffer at `W2`, left at `W3` (what the launch reads at
    the end). Its invariant carries the accumulator between points; at the two ends it is the scoped rest and the
    generator register. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun w => A_eq1 (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's three segments in order: the first kernel, the reshapes from its exit contents, the second kernel. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- The program is the run of the segments. -/
theorem main_run (c : Dev nD) : main (F := F) c = Pipeline.Seg.run (segs m) := (main_chain c).trans (by chain_rfl)

set_option backward.isDefEq.respectTransparency.types false in
/-- From any memory with zero counters, every weakly fair execution of the program on the cores terminates, nothing
    faulting, and every final memory holds, at every buffer outside the kernels' scopes, the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun _ h => h)

/-- The program runs and its five argument arrays end holding their launch contents, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (run_all m ρ).mono fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩

end Cert.KernelIdeal.Hand

end
-- ==== Proof.LibDenseRows.lean ====
/-
  Dense layers on the extended reals, row by row.

  A dense layer sends a row vector `h` of length `k` to the vector whose entry `j` is `∑ c, h c · W j c + b j` — the
  weight matrix `W` is `n × k`, one row per output entry — and a rectified layer takes the positive part of each
  entry. The matrix unit computes such a layer for all rows of an `m × k` array at once: its product of the `m × k`
  array with the `n × k` weights, the right operand contracted on its LAST axis, into the zero accumulator holds at
  entry `(a, j)` the sum over the contracted position `c` of `A[a,c] · W[j,c]`; adding the bias kept as a row
  `[1, n]` spread over the `m` rows and taking the maximum with the zero splat gives, at `(a, j)`, the rectified
  layer of row `a`. So every row of the result depends on the same row of the operand only.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.DenseRows

open Idealize.ShloMosaic Idealize.ShloMosaic.ValueIdx

/-! ## The layers, on one row -/

/-- A dense layer on one row: entry `j` is `∑ c, h c · W j c + b j`. -/
def dense {k n : Nat} (W : Fin n → Fin k → EReal) (b : Fin n → EReal) (h : Fin k → EReal) : Fin n → EReal :=
  fun j => (∑ c : Fin k, h c * W j c) + b j

/-- A rectified dense layer on one row: the positive part of each entry of the dense layer. -/
def reluDense {k n : Nat} (W : Fin n → Fin k → EReal) (b : Fin n → EReal) (h : Fin k → EReal) : Fin n → EReal :=
  fun j => max (dense W b h j) 0

/-- The layers respect equality of the incoming row. -/
theorem dense_congr {k n : Nat} (W : Fin n → Fin k → EReal) (b : Fin n → EReal) {h h' : Fin k → EReal}
    (e : ∀ c, h c = h' c) (j : Fin n) : dense W b h j = dense W b h' j := by
  rw [show h = h' from funext e]

/-- The rectified layers respect equality of the incoming row. -/
theorem reluDense_congr {k n : Nat} (W : Fin n → Fin k → EReal) (b : Fin n → EReal) {h h' : Fin k → EReal}
    (e : ∀ c, h c = h' c) (j : Fin n) : reluDense W b h j = reluDense W b h' j := by
  rw [show h = h' from funext e]

/-! ## The product with the right operand contracted on its last axis -/

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contracted position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contracted position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product into the zero accumulator at an entry**: `∑ c, A[a,c] · B[j,c]`, at the ideal values, whatever the
    operands' formats and the precision key. -/
theorem matmul_rows_zero_apply {φ₁ φ₂ : FTy} (prec : Option ContractPrecision)
    (A : FVec Ideal ⟨2, ![m, k]⟩ φ₁) (B : FVec Ideal ⟨2, ![n, k]⟩ φ₂) (a : Fin m) (j : Fin n) :
    FloatOps.matmul (DotDims.transposedRhs m k n) prec A B (constant ⟨2, ![m, n]⟩ .f32 0x00000000#32) (ix2 a j)
      = ∑ c : Fin k, A (ix2 a c) * B (ix2 j c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a j) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a j) ((contrEquiv1 (DotDims.transposedRhs m k n) k rfl rfl).symm c) = ix2 j c :=
    funext fun ax => Fin.ext (by
      match ax with
      | ⟨0, _⟩ => exact rhs_row _ _
      | ⟨1, _⟩ => exact (rhs_col _ _).trans hc)
  rw [el, er]

/-! ## A rectified layer computed for all rows at once -/

/-- The product into zero, plus the bias row spread over the rows, rectified against the zero splat: at `(a, j)` the
    rectified dense layer of row `a` of the left operand, with the weights' row `j` and the bias' entry `j`. -/
theorem relu_rows_apply {φ₁ φ₂ : FTy} (prec : Option ContractPrecision)
    (v : FVec Ideal ⟨2, ![m, k]⟩ φ₁) (W : FVec Ideal ⟨2, ![n, k]⟩ φ₂) (bias : FVec Ideal ⟨2, ![1, n]⟩ .f32)
    (hb : (⟨2, ![1, n]⟩ : Shape).Broadcasts ⟨2, ![m, n]⟩) (a : Fin m) (j : Fin n) :
    maximumf (addf (matmul (DotDims.transposedRhs m k n) prec v W (constant ⟨2, ![m, n]⟩ .f32 0x00000000#32))
        (broadcastTo ⟨2, ![m, n]⟩ bias hb))
      (broadcast ⟨2, ![m, n]⟩ (Scalar.ofBits .f32 0x00000000#32)) (ix2 a j)
      = reluDense (fun j c => W (ix2 j c)) (fun j => bias (ix2 (0 : Fin 1) j)) (fun c => v (ix2 a c)) j := by
  show max (FloatOps.matmul (DotDims.transposedRhs m k n) prec v W (constant ⟨2, ![m, n]⟩ .f32 0x00000000#32) (ix2 a j)
      + broadcastTo ⟨2, ![m, n]⟩ bias hb (ix2 a j)) (Ideal.ofBits .f32 0x00000000#32) = _
  rw [matmul_rows_zero_apply, broadcastTo_1b_ab_apply, Ideal.ofBits_zero_f32]
  rfl

/-- The same with the bias row first cast to its own shape (an identity cast). -/
theorem relu_rows_cast_apply {φ₁ φ₂ : FTy} (prec : Option ContractPrecision)
    (v : FVec Ideal ⟨2, ![m, k]⟩ φ₁) (W : FVec Ideal ⟨2, ![n, k]⟩ φ₂) (bias : FVec Ideal ⟨2, ![1, n]⟩ .f32)
    (hsc : (⟨2, ![1, n]⟩ : Shape).ShapeCasts ⟨2, ![1, n]⟩) (hb : (⟨2, ![1, n]⟩ : Shape).Broadcasts ⟨2, ![m, n]⟩)
    (a : Fin m) (j : Fin n) :
    maximumf (addf (matmul (DotDims.transposedRhs m k n) prec v W (constant ⟨2, ![m, n]⟩ .f32 0x00000000#32))
        (broadcastTo ⟨2, ![m, n]⟩ (shapeCast ⟨2, ![1, n]⟩ bias hsc) hb))
      (broadcast ⟨2, ![m, n]⟩ (Scalar.ofBits .f32 0x00000000#32)) (ix2 a j)
      = reluDense (fun j c => W (ix2 j c)) (fun j => bias (ix2 (0 : Fin 1) j)) (fun c => v (ix2 a c)) j := by
  rw [shapeCast_self]
  exact relu_rows_apply prec v W bias hb a j

end Cert.DenseRows

end
-- ==== Proof.Spec.lean ====
/-
  What the network computes, on the extended reals.

  A feature map `x` of shape [256, 1024, 7, 7] is scaled channel by channel: every entry of the 7 × 7 map of channel
  `(b, c)` is multiplied by the largest entry of that map (the maximum taken from −∞, row by row and then over the
  rows). The scaled maps of a sample are laid out as one row of length 1024 · 7 · 7 = 50176, in row-major order. A
  rectified dense layer with weights `W1` ([768, 50176], one row per hidden unit) and bias `b1` gives the 768 hidden
  values of the sample, and a dense layer with weights `W2` ([5, 768]) and bias `b2` its 5 outputs.
-/
import Idealize.ShloMosaic.PureOps.Ideal.Laws
import Idealize.ShloMosaic.Lib.ValueIdx
import Idealize.ShloMosaic.Lib.Pipeline.Value
import proofs.«182137_j42588895707592_2_alg».proof.Proof.LibDenseRows

noncomputable section

open scoped BigOperators

namespace Cert.Spec

open Idealize.ShloMosaic Idealize.ShloMosaic.ValueIdx

/-- The feature maps, the flattened maps, the two weight matrices, the two biases, the outputs. -/
abbrev SX : Shape := ⟨4, ![256, 1024, 7, 7]⟩
abbrev SFlat : Shape := ⟨2, ![256, 50176]⟩
abbrev SW1 : Shape := ⟨2, ![768, 50176]⟩
abbrev SB1 : Shape := ⟨1, ![768]⟩
abbrev SW2 : Shape := ⟨2, ![5, 768]⟩
abbrev SB2 : Shape := ⟨1, ![5]⟩
abbrev SOut : Shape := ⟨2, ![256, 5]⟩

/-- The largest entry of the 7 × 7 map of channel `(b, c)`: the maximum over the rows of each row's maximum, both
    taken from −∞. -/
def chanMax (x : SX.Idx → EReal) (b : Fin 256) (c : Fin 1024) : EReal :=
  (Finset.univ : Finset (Fin 7)).sup fun h => (Finset.univ : Finset (Fin 7)).sup fun w => x (ix4 b c h w)

/-- Every entry multiplied by its channel's largest entry. -/
def scaled (x : SX.Idx → EReal) : SX.Idx → EReal :=
  fun i => x i * chanMax x ⟨(i 0).val, (i 0).isLt⟩ ⟨(i 1).val, (i 1).isLt⟩

theorem scaled_apply (x : SX.Idx → EReal) (b : Fin 256) (c : Fin 1024) (h w : Fin 7) :
    scaled x (ix4 b c h w) = x (ix4 b c h w) * chanMax x b c := rfl

/-- The scaled maps of each sample as one row, in row-major order (the re-laying itself is never opened: both
    programs apply the same one). -/
def flat (hsc : SX.ShapeCasts SFlat) (x : SX.Idx → EReal) : SFlat.Idx → EReal :=
  shapeCast SFlat (scaled x) hsc

/-- The hidden values of sample `a`: the rectified dense layer of its row. -/
def hidden (hsc : SX.ShapeCasts SFlat) (x : SX.Idx → EReal) (W1 : SW1.Idx → EReal) (b1 : SB1.Idx → EReal) (a : Fin 256) :
    Fin 768 → EReal :=
  Cert.DenseRows.reluDense (fun d k => W1 (ix2 d k)) (fun d => b1 (ix1 d)) (fun k : Fin 50176 => flat hsc x (ix2 a k))

/-- The outputs: the dense layer of each sample's hidden values. -/
def logits (hsc : SX.ShapeCasts SFlat) (x : SX.Idx → EReal) (W1 : SW1.Idx → EReal) (b1 : SB1.Idx → EReal)
    (W2 : SW2.Idx → EReal) (b2 : SB2.Idx → EReal) : SOut.Idx → EReal :=
  fun i => Cert.DenseRows.dense (fun j d => W2 (ix2 j d)) (fun j => b2 (ix1 j)) (hidden hsc x W1 b1 ⟨(i 0).val, (i 0).isLt⟩)
    ⟨(i 1).val, (i 1).isLt⟩

theorem logits_apply (hsc : SX.ShapeCasts SFlat) (x : SX.Idx → EReal) (W1 : SW1.Idx → EReal) (b1 : SB1.Idx → EReal)
    (W2 : SW2.Idx → EReal) (b2 : SB2.Idx → EReal) (a : Fin 256) (j : Fin 5) :
    logits hsc x W1 b1 W2 b2 (ix2 a j)
      = Cert.DenseRows.dense (fun j d => W2 (ix2 j d)) (fun j => b2 (ix1 j)) (hidden hsc x W1 b1 a) j := rfl

end Cert.Spec

end
-- ==== Proof.PcamValue.lean ====
/-
  What the first region leaves in its result array, on the extended reals: every 7 × 7 feature map multiplied, entry by
  entry, by its own largest entry.

  * Reading a maximum along the last or the third axis of a rank-4 vector at an entry (the fold of `max` from the
    starting word over that axis), a vector kept with a trailing unit axis, and a [a, b, 1, 1] vector spread over
    [a, b, c, d]; the fold of `max` from the word of −∞ is the supremum.
  * The kernel's stored value at an entry (p, ch, h, w) of a block: the block's entry times the largest entry of the
    block's map (p, ch), the maximum taken row by row and then over the rows.
  * Block `t` of the argument is samples 2t and 2t + 1, every channel; the point that covers sample `b` is `b / 2`;
    so the result array ends holding the scaled maps of the argument.
-/
import proofs.«182137_j42588895707592_2_alg».proof.Proof.KIRegion0
import proofs.«182137_j42588895707592_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PcamValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## A maximum along one axis of a rank-4 vector, and the unit axes kept around it -/

/-- Rank 4, the last axis dropped: (p, q, r) with `k` put back is (p, q, r, k). -/
theorem lift4_axis3 {n0 n1 n2 n3 : Nat} (h : (⟨4, ![n0, n1, n2, n3]⟩ : Shape).Reduces [3] (⟨3, ![n0, n1, n2]⟩ : Shape))
    (p : Fin n0) (q : Fin n1) (r : Fin n2) (k : Fin ((⟨4, ![n0, n1, n2, n3]⟩ : Shape).size 3)) :
    h.lift (ix3 p q r) k = ix4 p q r (⟨k.val, k.isLt⟩ : Fin n3) := by
  funext c; apply Fin.ext
  fin_cases c <;> rfl

/-- Rank 4, the third axis dropped: (p, q, u) with `k` put back is (p, q, k, u). -/
theorem lift4_axis2 {n0 n1 n2 n3 : Nat} (h : (⟨4, ![n0, n1, n2, n3]⟩ : Shape).Reduces [2] (⟨3, ![n0, n1, n3]⟩ : Shape))
    (p : Fin n0) (q : Fin n1) (u : Fin n3) (k : Fin ((⟨4, ![n0, n1, n2, n3]⟩ : Shape).size 2)) :
    h.lift (ix3 p q u) k = ix4 p q (⟨k.val, k.isLt⟩ : Fin n2) u := by
  funext c; apply Fin.ext
  fin_cases c <;> rfl

/-- The maximum along the last axis: at (p, q, r), the fold of `max` from the starting word over the entries
    (p, q, r, ·). -/
theorem max4_last_apply {n0 n1 n2 n3 : Nat} (src : FVec Ideal (⟨4, ![n0, n1, n2, n3]⟩ : Shape) .f32) (acc : BitVec 32)
    (h : (⟨4, ![n0, n1, n2, n3]⟩ : Shape).Reduces [3] (⟨3, ![n0, n1, n2]⟩ : Shape)) (hφ : FKind.Formats .f32)
    (hacc : acc = FKind.maximumf.neutral .f32 hφ) (p : Fin n0) (q : Fin n1) (r : Fin n2) :
    multiReduction .maximumf [3] (⟨3, ![n0, n1, n2]⟩ : Shape) src acc h hφ hacc (ix3 p q r)
      = (Finset.univ : Finset (Fin n3)).fold max (Ideal.ofBits .f32 acc) fun k => src (ix4 p q r k) := by
  refine (Ideal.multiReduction_maximumf_single src acc h hφ hacc (ix3 p q r)).trans ?_
  have hf : (src ∘ h.lift (ix3 p q r)) = fun k : Fin n3 => src (ix4 p q r k) :=
    funext fun k => congrArg src (lift4_axis3 h p q r k)
  exact congrArg (fun f => Finset.fold max (Ideal.ofBits .f32 acc) f (Finset.univ : Finset (Fin n3))) hf

/-- The maximum along the third axis: at (p, q, u), the fold of `max` from the starting word over the entries
    (p, q, ·, u). -/
theorem max4_third_apply {n0 n1 n2 n3 : Nat} (src : FVec Ideal (⟨4, ![n0, n1, n2, n3]⟩ : Shape) .f32) (acc : BitVec 32)
    (h : (⟨4, ![n0, n1, n2, n3]⟩ : Shape).Reduces [2] (⟨3, ![n0, n1, n3]⟩ : Shape)) (hφ : FKind.Formats .f32)
    (hacc : acc = FKind.maximumf.neutral .f32 hφ) (p : Fin n0) (q : Fin n1) (u : Fin n3) :
    multiReduction .maximumf [2] (⟨3, ![n0, n1, n3]⟩ : Shape) src acc h hφ hacc (ix3 p q u)
      = (Finset.univ : Finset (Fin n2)).fold max (Ideal.ofBits .f32 acc) fun k => src (ix4 p q k u) := by
  refine (Ideal.multiReduction_maximumf_single src acc h hφ hacc (ix3 p q u)).trans ?_
  have hf : (src ∘ h.lift (ix3 p q u)) = fun k : Fin n2 => src (ix4 p q k u) :=
    funext fun k => congrArg src (lift4_axis2 h p q u k)
  exact congrArg (fun f => Finset.fold max (Ideal.ofBits .f32 acc) f (Finset.univ : Finset (Fin n2))) hf

/-- The word of −∞ is the least extended real, so the fold of `max` from it is the supremum. -/
theorem fold_max_negInf {ι : Type} (s : Finset ι) (f : ι → EReal) :
    s.fold max (Ideal.ofBits .f32 0xFF800000#32) f = s.sup f := by
  have e : Ideal.ofBits .f32 0xFF800000#32 = (⊥ : EReal) := by simp [Ideal.ofBits, Ideal.ieee]
  rw [e]; rfl

variable {α : Type}

/-- An `[a, b, c]` vector cast to `[a, b, c, 1]` reads, at `(i, j, k, u)`, entry `(i, j, k)`. -/
theorem shapeCast_abc_abc1_apply {a b c : Nat} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An `[a, b, 1, 1]` vector broadcast to `[a, b, c, d]` reads, at `(i, j, k, l)`, its entry `(i, j, 0, 0)`. -/
theorem broadcastTo_ab11_abcd_apply {a b c d : Nat} (v : (⟨4, ![a, b, 1, 1]⟩ : Shape).Idx → α)
    (h : (⟨4, ![a, b, 1, 1]⟩ : Shape).Broadcasts ⟨4, ![a, b, c, d]⟩) (i : Fin a) (j : Fin b) (k : Fin c) (l : Fin d) :
    broadcastTo ⟨4, ![a, b, c, d]⟩ v h (ix4 i j k l) = v (ix4 i j (0 : Fin 1) (0 : Fin 1)) := by
  refine broadcastTo_apply v h (ix4 i j k l) (ix4 i j (0 : Fin 1) (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl
  | ⟨3, _⟩ => rfl

/-! ## The stored value at an entry of a block -/

/-- The kernel's stored value at entry (p, ch, h, w): the block's entry times the largest entry of the block's map
    (p, ch) — the maximum of each row, then the maximum of those, both from −∞. -/
theorem pay_apply (x0 : Vec Ideal S2x1024x7x7 .f32) (p : Fin 2) (ch : Fin 1024) (h w : Fin 7) :
    k0_pay1 x0 (ix4 p ch h w)
      = x0 (ix4 p ch h w) * (Finset.univ.sup fun h' : Fin 7 => Finset.univ.sup fun w' : Fin 7 => x0 (ix4 p ch h' w')) := by
  unfold k0_pay1
  show x0 (ix4 p ch h w) * broadcastTo S2x1024x7x7 _ _ (ix4 p ch h w) = _
  refine congrArg (x0 (ix4 p ch h w) * ·) ?_
  refine (broadcastTo_ab11_abcd_apply _ _ p ch h w).trans ?_
  refine (shapeCast_abc_abc1_apply _ _ p ch (0 : Fin 1) (0 : Fin 1)).trans ?_
  refine (max4_third_apply _ _ _ _ _ p ch (0 : Fin 1)).trans ?_
  refine (fold_max_negInf _ _).trans ?_
  refine Finset.sup_congr rfl fun h' _ => ?_
  refine (shapeCast_abc_abc1_apply _ _ p ch h' (0 : Fin 1)).trans ?_
  refine (max4_last_apply _ _ _ _ _ p ch h').trans ?_
  exact fold_max_negInf _ _

/-! ## From blocks to the array -/

variable (V : (c : Dev nD) → (b : Ref sig .tc) → Buf (Elt Ideal) ((c : Thread nD τ).loc b))

theorem hz : (![0, 0, 0, 0] : Fin 4 → Nat) = fun _ => 0 := funext fun a => by fin_cases a <;> rfl

/-- The two windows' block indices, decided over the grid: block `t` is at `t` along the samples and at 0 along the
    other three axes. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- The input window's block at point `t` is samples 2t and 2t + 1 of the argument, every channel. -/
theorem iblk0_apply (c : Dev nD) (t : Fin cfg0.N) (x : S2x1024x7x7.Idx) (k : S256x1024x7x7.Idx)
    (hk0 : (k 0).val = 2 * t.val + (x 0).val) (hk1 : (k 1).val = (x 1).val) (hk2 : (k 2).val = (x 2).val)
    (hk3 : (k 3).val = (x 3).val) :
    (iblk0 V c 0 t : Vec Ideal S2x1024x7x7 .f32) x = (V c main_arg0 : S256x1024x7x7.Idx → EReal) k := by
  obtain ⟨e0, e1, e2, e3, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 4) * 2 + 1 * (x 0).val = (k 0).val; rw [e0, hk0]; omega
  | ⟨1, _⟩ => show win0_0.index t (1 : Fin 4) * 1024 + 1 * (x 1).val = (k 1).val; rw [e1, hk1]; omega
  | ⟨2, _⟩ => show win0_0.index t (2 : Fin 4) * 7 + 1 * (x 2).val = (k 2).val; rw [e2, hk2]; omega
  | ⟨3, _⟩ => show win0_0.index t (3 : Fin 4) * 7 + 1 * (x 3).val = (k 3).val; rw [e3, hk3]; omega

/-- A block that holds samples 2T and 2T + 1 of an array `X`: the stored value at (p, ch, h, w) is the scaled array's
    entry (2T + p, ch, h, w). -/
theorem pay_scaled (X : Cert.Spec.SX.Idx → EReal) (x0 : Vec Ideal S2x1024x7x7 .f32) (T : Nat) (hT : T < 128)
    (hx : ∀ (p : Fin 2) (ch : Fin 1024) (h w : Fin 7), x0 (ix4 p ch h w) = X (ix4 (⟨2 * T + p.val, by omega⟩ : Fin 256) ch h w))
    (p : Fin 2) (ch : Fin 1024) (h w : Fin 7) :
    k0_pay1 x0 (ix4 p ch h w) = Cert.Spec.scaled X (ix4 (⟨2 * T + p.val, by omega⟩ : Fin 256) ch h w) := by
  rw [pay_apply, Cert.Spec.scaled_apply, hx]
  unfold Cert.Spec.chanMax
  refine congrArg (X _ * ·) ?_
  exact Finset.sup_congr rfl fun h' _ => Finset.sup_congr rfl fun w' _ => hx p ch h' w'

/-- What point `t` stores, entry by entry, is the scaled argument read where the output's block sits. -/
theorem stored_apply (c : Dev nD) (t : Fin cfg0.N) (j : S2x1024x7x7.Idx) :
    k0_pay1 (iblk0 V c 0 t : Vec Ideal S2x1024x7x7 .f32) j
      = Cert.Spec.scaled (V c main_arg0) (((cfg0.win 1).blk t).view.emb j) := by
  obtain ⟨p, ch, h, w, rfl⟩ : ∃ (p : Fin 2) (ch : Fin 1024) (h w : Fin 7), j = ix4 p ch h w := ⟨j 0, j 1, j 2, j 3, eq_ix4 j⟩
  obtain ⟨-, -, -, -, e0, e1, e2, e3⟩ := idx_facts t
  have hT : t.val < 128 := Nat.lt_of_lt_of_eq t.isLt (show cfg0.N = 128 from N_0)
  refine (pay_scaled (V c main_arg0) _ t.val hT (fun p ch h w => iblk0_apply V c t _ _ rfl rfl rfl rfl) p ch h w).trans ?_
  refine congrArg (Cert.Spec.scaled (V c main_arg0)) ?_
  funext a
  apply Fin.ext
  match a with
  | ⟨0, _⟩ => show 2 * t.val + p.val = win0_1.index t (0 : Fin 4) * 2 + 1 * p.val; rw [e0]; omega
  | ⟨1, _⟩ => show ch.val = win0_1.index t (1 : Fin 4) * 1024 + 1 * ch.val; rw [e1]; omega
  | ⟨2, _⟩ => show h.val = win0_1.index t (2 : Fin 4) * 7 + 1 * h.val; rw [e2]; omega
  | ⟨3, _⟩ => show w.val = win0_1.index t (3 : Fin 4) * 7 + 1 * w.val; rw [e3]; omega

/-- What point `t` writes back is block `t` of the scaled argument. -/
theorem flushed_eq (c : Dev nD) (t : Fin cfg0.N) :
    (dat0 (F := Ideal) V c).flushed 1 t = ((cfg0.win 1).blk t).view.read (Elt Ideal) (Cert.Spec.scaled (V c main_arg0)) := by
  show (cfg0.win 1).cut (grid0.coords t) ((dat0 V c).after 1 t) = _
  rw [after0_1]
  unfold out0_1
  rw [View.canon_unit_zero hz]
  simp only [View.ld_unit_zero (S := S2x1024x7x7) hz]
  funext j
  exact stored_apply V c t j

/-- An index of the array is in point `t`'s block iff each coordinate is in the block's range on its axis. -/
theorem mem_blk (t : Fin cfg0.N) (i : S256x1024x7x7.Idx) :
    i ∈ ((cfg0.win 1).blk t).view.set ↔ ∀ a : Fin 4, win0_1.index t a * S2x1024x7x7.size a ≤ (i a).val ∧ (i a).val < win0_1.index t a * S2x1024x7x7.size a + S2x1024x7x7.size a := by
  show i ∈ ((View.whole main_v0).slice (win0_1.rect t)).set ↔ _
  rw [View.set_slice_whole, Rect.mem_set_unit]
  exact Iff.rfl

/-- Every index of the array is in some point's block: sample `b` is in the block of point `b / 2`. -/
theorem cover (i : S256x1024x7x7.Idx) :
    ∃ t : Fin cfg0.N, (cfg0.win 1).flush t = true ∧ i ∈ ((cfg0.win 1).blk t).view.set := by
  have hi0 : (i 0).val < 256 := (i 0).isLt
  have hi1 : (i 1).val < 1024 := (i 1).isLt
  have hi2 : (i 2).val < 7 := (i 2).isLt
  have hi3 : (i 3).val < 7 := (i 3).isLt
  have hN : cfg0.N = 128 := N_0
  refine ⟨⟨(i 0).val / 2, by rw [hN]; omega⟩, flush0_1 _, ?_⟩
  obtain ⟨-, -, -, -, e0, e1, e2, e3⟩ := idx_facts ⟨(i 0).val / 2, by rw [hN]; omega⟩
  rw [mem_blk]
  intro a
  match a with
  | ⟨0, _⟩ => show win0_1.index _ (0 : Fin 4) * 2 ≤ (i 0).val ∧ (i 0).val < win0_1.index _ (0 : Fin 4) * 2 + 2; rw [e0]; show (i 0).val / 2 * 2 ≤ (i 0).val ∧ (i 0).val < (i 0).val / 2 * 2 + 2; omega
  | ⟨1, _⟩ => show win0_1.index _ (1 : Fin 4) * 1024 ≤ (i 1).val ∧ (i 1).val < win0_1.index _ (1 : Fin 4) * 1024 + 1024; rw [e1]; omega
  | ⟨2, _⟩ => show win0_1.index _ (2 : Fin 4) * 7 ≤ (i 2).val ∧ (i 2).val < win0_1.index _ (2 : Fin 4) * 7 + 7; rw [e2]; omega
  | ⟨3, _⟩ => show win0_1.index _ (3 : Fin 4) * 7 ≤ (i 3).val ∧ (i 3).val < win0_1.index _ (3 : Fin 4) * 7 + 7; rw [e3]; omega

/-- The result array of the first region after its run: the scaled maps of the argument. -/
theorem scaled_final (V : (c : Dev nD) → (b : Ref sig .tc) → Buf (Elt Ideal) ((c : Thread nD τ).loc b)) (c : Dev nD) :
    (dat0 (F := Ideal) V c).arrAt 1 cfg0.N = Cert.Spec.scaled (V c main_arg0) :=
  (dat0 (F := Ideal) V c).arrAt_eq_of_cover 1 (Cert.Spec.scaled (V c main_arg0)) (fun t _ => flushed_eq V c t) cover

end Cert.KernelIdeal.PcamValue

end
-- ==== Proof.KIValue.lean ====
/-
  The value the program computes, on the extended reals: from what every buffer holds after the last segment to the
  network's outputs.

  The first kernel leaves the scaled feature maps in its result array; the three reshapes lay them out as one row per
  sample and keep each bias as a one-row matrix; the weights are untouched. So the second kernel — given, as a
  hypothesis here, that its result array holds at (a, j) the dense layer of the rectified dense layer of row `a` of its
  first array — leaves the network's outputs, and every final memory of the program holds them, the five arguments as
  launched.
-/
import proofs.«182137_j42588895707592_2_alg».proof.Proof.KIRun
import proofs.«182137_j42588895707592_2_alg».proof.Proof.PcamValue
import proofs.«182137_j42588895707592_2_alg».proof.Proof.Spec
import proofs.«182137_j42588895707592_2_alg».proof.Proof.LibDenseRows
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Assembly

open Cert.KernelIdeal Cert.KernelIdeal.Gen Cert.KernelIdeal.Hand
open Idealize.ShloMosaic Idealize.ShloMosaic.TcCoe Idealize.ShloMosaic.ValueIdx Idealize.SL.Sem
open Idealize.ShloMosaic.StableHlo (after_cons after_nil reshape_result reshape_result_ne)

variable (m : (ℓ : Loc nD τ sig) → Buf (Elt Ideal) ℓ)

/-! ## The buffers the second kernel reads, as it finds them -/

/-- After the first kernel its result array holds the scaled maps of the first argument. -/
theorem V1_main_v0 (c : Dev nD) : V1 m c main_v0 = Cert.Spec.scaled (m ((c : Thread nD τ).loc main_arg0)) :=
  (W1_arr m c 1).trans (PcamValue.scaled_final (V0 m) c)

/-- The first reshape lays the scaled maps out as one row per sample. -/
theorem V2_main_v1 (hsc : Cert.Spec.SX.ShapeCasts Cert.Spec.SFlat) (c : Dev nD) :
    V2 m c main_v1 = Cert.Spec.flat hsc (m ((c : Thread nD τ).loc main_arg0)) := by
  show StableHlo.after hostOps1 (W1 m c) (Proc.devRef .tc main_v1) = _
  after_results
  rw [show W1 m c (Proc.devRef .tc main_v0) = _ from V1_main_v0 m c]
  rfl

/-- The second reshape keeps the first bias as a one-row matrix. -/
theorem V2_main_v2 (c : Dev nD) (d : Fin 768) :
    V2 m c main_v2 (ix2 (0 : Fin 1) d) = m ((c : Thread nD τ).loc main_arg2) (ix1 d) := by
  show StableHlo.after hostOps1 (W1 m c) (Proc.devRef .tc main_v2) (ix2 (0 : Fin 1) d) = _
  after_results
  rw [show W1 m c (Proc.devRef .tc main_arg2) = _ from W1_of_ne m c main_arg2 (by decide)]
  exact shapeCast_a_1a_apply _ _ (0 : Fin 1) d

/-- The third reshape keeps the second bias as a one-row matrix. -/
theorem V2_main_v3 (c : Dev nD) (j : Fin 5) :
    V2 m c main_v3 (ix2 (0 : Fin 1) j) = m ((c : Thread nD τ).loc main_arg4) (ix1 j) := by
  show StableHlo.after hostOps1 (W1 m c) (Proc.devRef .tc main_v3) (ix2 (0 : Fin 1) j) = _
  after_results
  rw [show W1 m c (Proc.devRef .tc main_arg4) = _ from W1_of_ne m c main_arg4 (by decide)]
  exact shapeCast_a_1a_apply _ _ (0 : Fin 1) j

/-- The first weight matrix is as launched: no reshape writes it and the first kernel does not touch it. -/
theorem V2_main_arg1 (c : Dev nD) : V2 m c main_arg1 = m ((c : Thread nD τ).loc main_arg1) :=
  (W2_of m c main_arg1 (by decide)).trans (W1_of_ne m c main_arg1 (by decide))

/-- The second weight matrix is as launched. -/
theorem V2_main_arg3 (c : Dev nD) : V2 m c main_arg3 = m ((c : Thread nD τ).loc main_arg3) :=
  (W2_of m c main_arg3 (by decide)).trans (W1_of_ne m c main_arg3 (by decide))

/-! ## The second kernel's result, and the run -/

/-- What the second kernel is taken to leave: at (a, j) of its result array, the dense layer of the rectified dense
    layer of row `a` of its first array, with the weights and the one-row biases it reads. -/
def SecondKernelLeaves : Prop :=
  ∀ (V : (c : Dev nD) → (b : Ref sig .tc) → Buf (Elt Ideal) ((c : Thread nD τ).loc b)) (c : Dev nD) (a : Fin 256) (j : Fin 5),
    (dat1 (F := Ideal) V c).arrAt 5 cfg1.N (ix2 a j)
      = Cert.DenseRows.dense (fun j d => V c main_arg3 (ix2 j d)) (fun j => V c main_v3 (ix2 (0 : Fin 1) j))
          (Cert.DenseRows.reluDense (fun d k => V c main_arg1 (ix2 d k)) (fun d => V c main_v2 (ix2 (0 : Fin 1) d))
            (fun k : Fin 50176 => V c main_v1 (ix2 a k))) j

/-- The last array: the network's outputs on the launch contents of the five arguments. -/
theorem kernel_logits_of (hfinal : SecondKernelLeaves) (hsc : Cert.Spec.SX.ShapeCasts Cert.Spec.SFlat) (c : Dev nD) :
    W3 m c (Proc.devRef .tc main_v4)
      = Cert.Spec.logits hsc (m ((c : Thread nD τ).loc main_arg0)) (m ((c : Thread nD τ).loc main_arg1))
          (m ((c : Thread nD τ).loc main_arg2)) (m ((c : Thread nD τ).loc main_arg3)) (m ((c : Thread nD τ).loc main_arg4)) := by
  refine (W3_arr m c 5).trans ?_
  funext i
  obtain ⟨a, j, rfl⟩ : ∃ (a : Fin 256) (j : Fin 5), i = ix2 a j := ⟨i 0, i 1, eq_ix2 i⟩
  refine (hfinal (V2 m) c a j).trans ?_
  rw [Cert.Spec.logits_apply]
  unfold Cert.Spec.hidden
  rw [V2_main_arg1 m c, V2_main_arg3 m c, V2_main_v1 m hsc c]
  simp only [V2_main_v2 m c, V2_main_v3 m c]

/-- From any memory with zero counters, every weakly fair execution of the program terminates, and every final memory
    holds the network's outputs in the last array and the five arguments as launched. -/
theorem run_value_of (hfinal : SecondKernelLeaves) (ρ : Dev nD → PrngReg) (hsc : Cert.Spec.SX.ShapeCasts Cert.Spec.SFlat) :
    θ_run (defs (F := Ideal)) (onTc (τ := τ) (main (F := Ideal))) ⟨m, fun _ => 0, ρ⟩ (fun r => ∀ c : Dev nD,
      r.2.mem ((c.tc : Thread nD τ).loc main_v4)
          = Cert.Spec.logits hsc (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (run_all m ρ).mono fun r h c =>
    ⟨(h c _ (mem_uc main_v4 (by decide))).trans (kernel_logits_of m hfinal hsc c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩

end Cert.KernelIdeal.Assembly

end
-- ==== Proof.KIR1Pieces.lean ====
/-
  What the second region's body leaves, case by case, as the payloads of the blocks it read: at the first point the
  accumulator is the first block's product added to the cleared accumulator; at a later point the block's product
  added to what the point before left; and at the last point the result window is the finishing layer of that sum.
-/
import proofs.«182137_j42588895707592_2_alg».proof.Proof.KIRegion1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The stores and loads of this body all go through the whole buffer, from the origin. -/
theorem hz : (![0, 0] : Fin 2 → Nat) = fun _ => 0 := funext fun a => by fin_cases a <;> rfl

theorem sout1_A_eq (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : cond1_0 i) (hc1 : ¬cond1_1 i)
    (x0 : Vec F S256x3584 .f32) (x1 : Vec F S768x3584 .f32) :
    sout1_A c i arg1 harg1 arg2 harg2 arg3 harg3 arg4 harg4 arg5 harg5 arg6 harg6 arg7 harg7 hc0 hc1 x0 x1 = k1_pay2 x0 x1 (k1_pay1 (F := F)) := by
  unfold sout1_A
  rw [View.read_writes_eq_canon _ _ _ (scover1_A c i arg1 harg1 arg2 harg2 arg3 harg3 arg4 harg4 arg5 harg5 arg6 harg6 arg7 harg7 hc0 hc1 x0 x1)]
  unfold kernelRun1_A; dsimp only; sl_unfold_words
  rw [View.canon_cons_unit_zero hz]
  simp only [View.readAt_eq_ld, harg1.read_unread, harg2.read_unread, View.readCov_unit_zero arg7.view hz,
    View.ld_unit_zero (S := S256x3584) hz, View.ld_unit_zero (S := S768x3584) hz]
  try rfl

theorem sout1_B_eq (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : ¬cond1_1 i)
    (x0 : Vec F S256x3584 .f32) (x1 : Vec F S768x3584 .f32) (xs0 : Vec F S256x768 .f32) :
    sout1_B c i arg1 harg1 arg2 harg2 arg3 harg3 arg4 harg4 arg5 harg5 arg6 harg6 arg7 harg7 hc0 hc1 x0 x1 xs0 = k1_pay2 x0 x1 xs0 := by
  unfold sout1_B
  rw [View.read_writes_eq_canon _ _ _ (scover1_B c i arg1 harg1 arg2 harg2 arg3 harg3 arg4 harg4 arg5 harg5 arg6 harg6 arg7 harg7 hc0 hc1 x0 x1 xs0)]
  unfold kernelRun1_B; dsimp only; sl_unfold_words
  rw [View.canon_unit_zero hz]
  simp only [View.readAt_eq_ld, harg1.read_unread, harg2.read_unread, harg7.read_unread,
    View.ld_unit_zero (S := S256x3584) hz, View.ld_unit_zero (S := S768x3584) hz, View.ld_unit_zero (S := S256x768) hz]
  try rfl

theorem sout1_C_eq (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) :
    sout1_C c i arg1 harg1 arg2 harg2 arg3 harg3 arg4 harg4 arg5 harg5 arg6 harg6 arg7 harg7 hc0 hc1 x0 x1 x2 x3 x4 xs0 = k1_pay2 x0 x1 xs0 := by
  unfold sout1_C
  rw [View.read_writes_eq_canon _ _ _ (scover1_C c i arg1 harg1 arg2 harg2 arg3 harg3 arg4 harg4 arg5 harg5 arg6 harg6 arg7 harg7 hc0 hc1 x0 x1 x2 x3 x4 xs0)]
  unfold kernelRun1_C; dsimp only; sl_unfold_words
  rw [View.canon_unit_zero hz]
  simp only [View.readAt_eq_ld, harg1.read_unread, harg2.read_unread, harg7.read_unread,
    View.ld_unit_zero (S := S256x3584) hz, View.ld_unit_zero (S := S768x3584) hz, View.ld_unit_zero (S := S256x768) hz]
  try rfl

theorem out1_C_eq (c : Dev nD) (i : grid1.Coords) (arg1 : Memref sig .tc .vmem S256x3584 .f32) (harg1 : arg1.IsWhole) (arg2 : Memref sig .tc .vmem S768x3584 .f32) (harg2 : arg2.IsWhole) (arg3 : Memref sig .tc .vmem S1x768 .f32) (harg3 : arg3.IsWhole) (arg4 : Memref sig .tc .vmem S5x768 .f32) (harg4 : arg4.IsWhole) (arg5 : Memref sig .tc .vmem S1x5 .f32) (harg5 : arg5.IsWhole) (arg6 : Memref sig .tc .vmem S256x5 .f32) (harg6 : arg6.IsWhole) (arg7 : Memref sig .tc .vmem S256x768 .f32) (harg7 : arg7.IsWhole) (hc0 : ¬cond1_0 i) (hc1 : cond1_1 i)
    (x0 : Vec F S256x3584 .f32) (x1 : Vec F S768x3584 .f32) (x2 : Vec F S1x768 .f32) (x3 : Vec F S5x768 .f32) (x4 : Vec F S1x5 .f32) (xs0 : Vec F S256x768 .f32) :
    out1_C c i arg1 harg1 arg2 harg2 arg3 harg3 arg4 harg4 arg5 harg5 arg6 harg6 arg7 harg7 hc0 hc1 x0 x1 x2 x3 x4 xs0 = k1_pay3 (k1_pay2 x0 x1 xs0) x2 x3 x4 := by
  unfold out1_C
  rw [View.read_writes_eq_canon _ _ _ (cover1_C c i arg1 harg1 arg2 harg2 arg3 harg3 arg4 harg4 arg5 harg5 arg6 harg6 arg7 harg7 hc0 hc1 x0 x1 x2 x3 x4 xs0)]
  unfold kernelRun1_C; dsimp only; sl_unfold_words
  rw [View.canon_unit_zero hz]
  simp only [View.readAt_eq_ld, harg1.read_unread, harg2.read_unread, harg3.read_unread, harg4.read_unread, harg5.read_unread,
    harg7.read_unread, View.readCov_unit_zero arg7.view hz,
    View.ld_unit_zero (S := S256x3584) hz, View.ld_unit_zero (S := S768x3584) hz, View.ld_unit_zero (S := S256x768) hz,
    View.ld_unit_zero (S := S1x768) hz, View.ld_unit_zero (S := S5x768) hz, View.ld_unit_zero (S := S1x5) hz]
  try rfl

end Cert.KernelIdeal.Hand

end
-- ==== Proof.MmPayload.lean ====
/-
  What the matrix-product kernel stores, entry by entry, on the extended reals.

  * The cleared accumulator is zero everywhere.
  * One point's accumulation adds to the accumulator's entry (a, d) the sum, over the point's 3584 columns, of the
    products of row a of the left block and row d of the right block: both operands are contracted on their last axis,
    the change of format in front of the matrix unit is the identity here, and the product starts from zero.
  * The last point's store holds at (a, j) the second dense layer of the rectified first layer: the sum over the 768
    hidden units d of max (acc[a,d] + b1[d], 0) · W2[j,d], plus b2[j], the two biases kept as rows.
-/
import proofs.«182137_j42588895707592_2_alg».proof.Proof.Gen.KernelIdeal.Skeleton
import proofs.«182137_j42588895707592_2_alg».proof.Proof.LibDenseRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MmValue

open Cert.KernelIdeal Cert.KernelIdeal.Gen Idealize.ShloMosaic Idealize.ShloMosaic.ValueIdx

/-- The first product's dimension numbers: both operands contracted on their last axis. -/
theorem dot1_eq : dot_S256x3584_S768x3584_S256x768_1_1_0_0_n_n = DotDims.transposedRhs 256 3584 768 := rfl

/-- The second product's dimension numbers: the same form. -/
theorem dot2_eq : dot_S256x768_S5x768_S256x5_1_1_0_0_n_n = DotDims.transposedRhs 256 768 5 := rfl

/-- The cleared accumulator is zero at every entry. -/
theorem k1_pay1_apply (a : Fin 256) (d : Fin 768) : k1_pay1 (F := Ideal) (ix2 a d) = (0 : EReal) := by
  unfold k1_pay1
  rw [shapeCast_self]
  exact Ideal.ofBits_zero_f32

/-- One point's accumulation at (a, d). -/
theorem k1_pay2_apply (x0 : Vec Ideal S256x3584 .f32) (x1 : Vec Ideal S768x3584 .f32) (acc : Vec Ideal S256x768 .f32)
    (a : Fin 256) (d : Fin 768) :
    k1_pay2 x0 x1 acc (ix2 a d) = acc (ix2 a d) + ∑ kk : Fin 3584, x0 (ix2 a kk) * x1 (ix2 d kk) := by
  unfold k1_pay2
  rw [shapeCast_self, shapeCast_self]
  refine congrArg (fun s : EReal => acc (ix2 a d) + s) ?_
  rw [dot1_eq]
  exact Cert.DenseRows.matmul_rows_zero_apply none (truncf .bf16 x0 bitsLt_bf16_f32) (truncf .bf16 x1 bitsLt_bf16_f32) a d

/-- The last point's store at (a, j). -/
theorem k1_pay3_apply (acc : Vec Ideal S256x768 .f32) (x2 : Vec Ideal S1x768 .f32) (x3 : Vec Ideal S5x768 .f32)
    (x4 : Vec Ideal S1x5 .f32) (a : Fin 256) (j : Fin 5) :
    k1_pay3 acc x2 x3 x4 (ix2 a j)
      = (∑ d : Fin 768, max (acc (ix2 a d) + x2 (ix2 (0 : Fin 1) d)) 0 * x3 (ix2 j d)) + x4 (ix2 (0 : Fin 1) j) := by
  unfold k1_pay3
  rw [shapeCast_self, shapeCast_self]
  refine congrArg₂ (fun s b : EReal => s + b) ?_ (broadcastTo_1b_ab_apply x4 broadcasts_S1x5_S256x5 a j)
  rw [dot2_eq]
  refine (Cert.DenseRows.matmul_rows_zero_apply none _ (truncf .bf16 x3 bitsLt_bf16_f32) a j).trans ?_
  refine Finset.sum_congr rfl fun d _ => congrArg (fun s : EReal => s * x3 (ix2 j d)) ?_
  show max (acc (ix2 a d) + broadcastTo S256x768 x2 broadcasts_S1x768_S256x768 (ix2 a d)) (Ideal.ofBits .f32 0x00000000#32) = _
  rw [broadcastTo_1b_ab_apply, Ideal.ofBits_zero_f32]

end Cert.KernelIdeal.MmValue

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.LibRangeBlocks.lean ====
/-
  A general lemma on sums over an initial segment of the naturals: the first a·b naturals may be taken block by block,
  a blocks of b consecutive ones.
-/
import proofs.«182137_j42588895707592_2_alg».proof.Proof.LibBlockSum

namespace Cert.LibRangeBlocks

open scoped BigOperators

/-- A sum over the first a·b naturals, taken as a blocks of b consecutive ones: block i holds b·i, …, b·i + b − 1. -/
theorem sum_range_blocks {M : Type*} [AddCommMonoid M] (a b : ℕ) (g : ℕ → M) :
    ∑ i ∈ Finset.range a, ∑ j ∈ Finset.range b, g (b * i + j) = ∑ n ∈ Finset.range (a * b), g n :=
  calc ∑ i ∈ Finset.range a, ∑ j ∈ Finset.range b, g (b * i + j)
      = ∑ i : Fin a, ∑ j ∈ Finset.range b, g (b * i.val + j) := Finset.sum_range _
    _ = ∑ i : Fin a, ∑ j : Fin b, g (b * i.val + j.val) := Finset.sum_congr rfl fun i _ => Finset.sum_range _
    _ = ∑ r : Fin (a * b), g r.val := Cert.LibBlockSum.sum_blocks a b fun r => g r.val
    _ = ∑ n ∈ Finset.range (a * b), g n := (Finset.sum_range _).symm

end Cert.LibRangeBlocks
-- ==== Proof.MmBlocks.lean ====
/-
  The matrix-product kernel's blocks, read off the arrays the region finds.

  At point t the first two windows hold columns 3584·t … 3584·t + 3583 of the flattened maps and of the first weight
  matrix (all their rows); the two bias rows and the second weight matrix are held whole at every point. So the sum one
  point adds to the accumulator's entry (a, d) is the sum of flat[a,r] · W1[d,r] over the point's columns r.
-/
import proofs.«182137_j42588895707592_2_alg».proof.Proof.KIR1Shared
import proofs.«182137_j42588895707592_2_alg».proof.Proof.LibRangeBlocks
import Idealize.ShloMosaic.Lib.ValueIdx
import Idealize.ShloMosaic.Lib.Pipeline.Value
import Idealize.ShloMosaic.PureOps.Ideal.Laws

noncomputable section

open scoped BigOperators

namespace Cert.KernelIdeal.MmValue

open Cert.KernelIdeal Cert.KernelIdeal.Gen Cert.KernelIdeal.Hand Idealize.ShloMosaic Idealize.ShloMosaic.TcCoe Idealize.ShloMosaic.ValueIdx

variable (V : (c : Dev nD) → (b : Ref sig .tc) → Buf (Elt Ideal) ((c : Thread nD τ).loc b))

/-- The printed index maps, decided over the grid: the first two windows move along their columns with the point, the
    other windows stay at their one block. -/
theorem idx_facts1 : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Column kk of block t is column 3584·t + kk of the whole. -/
theorem col_lt (t : Fin cfg1.N) (kk : Fin 3584) : 3584 * t.val + kk.val < 50176 := by
  have hN : t.val < 14 := lt_of_lt_of_eq t.isLt (show cfg1.N = 14 from N_1)
  have := kk.isLt
  omega

/-- The flattened maps' block at point t. -/
theorem iblk1_0_apply (c : Dev nD) (t : Fin cfg1.N) (a : Fin 256) (kk : Fin 3584) :
    iblk1 V c 0 t (ix2 a kk) = V c main_v1 (ix2 a ⟨3584 * t.val + kk.val, col_lt t kk⟩) := by
  unfold iblk1
  rw [View.read_apply]
  obtain ⟨e0, e1, -⟩ := idx_facts1 t
  refine congrArg (V c main_v1) (funext fun ax => Fin.ext ?_)
  match ax with
  | ⟨0, _⟩ => show win1_0.index t (0 : Fin 2) * 256 + 1 * a.val = a.val; rw [e0]; omega
  | ⟨1, _⟩ => show win1_0.index t (1 : Fin 2) * 3584 + 1 * kk.val = 3584 * t.val + kk.val; rw [e1]; omega

/-- The first weight matrix' block at point t. -/
theorem iblk1_1_apply (c : Dev nD) (t : Fin cfg1.N) (d : Fin 768) (kk : Fin 3584) :
    iblk1 V c 1 t (ix2 d kk) = V c main_arg1 (ix2 d ⟨3584 * t.val + kk.val, col_lt t kk⟩) := by
  unfold iblk1
  rw [View.read_apply]
  obtain ⟨-, -, e0, e1, -⟩ := idx_facts1 t
  refine congrArg (V c main_arg1) (funext fun ax => Fin.ext ?_)
  match ax with
  | ⟨0, _⟩ => show win1_1.index t (0 : Fin 2) * 768 + 1 * d.val = d.val; rw [e0]; omega
  | ⟨1, _⟩ => show win1_1.index t (1 : Fin 2) * 3584 + 1 * kk.val = 3584 * t.val + kk.val; rw [e1]; omega

/-- The first bias row is held whole at every point. -/
theorem iblk1_2_eq (c : Dev nD) (t : Fin cfg1.N) : iblk1 V c 2 t = V c main_v2 := by
  funext y
  unfold iblk1
  rw [View.read_apply]
  obtain ⟨-, -, -, -, e0, e1, -⟩ := idx_facts1 t
  refine congrArg (V c main_v2) (funext fun ax => Fin.ext ?_)
  match ax with
  | ⟨0, _⟩ => show win1_2.index t (0 : Fin 2) * 1 + 1 * (y 0).val = (y 0).val; rw [e0]; omega
  | ⟨1, _⟩ => show win1_2.index t (1 : Fin 2) * 768 + 1 * (y 1).val = (y 1).val; rw [e1]; omega

/-- The second weight matrix is held whole at every point. -/
theorem iblk1_3_eq (c : Dev nD) (t : Fin cfg1.N) : iblk1 V c 3 t = V c main_arg3 := by
  funext y
  unfold iblk1
  rw [View.read_apply]
  obtain ⟨-, -, -, -, -, -, e0, e1, -⟩ := idx_facts1 t
  refine congrArg (V c main_arg3) (funext fun ax => Fin.ext ?_)
  match ax with
  | ⟨0, _⟩ => show win1_3.index t (0 : Fin 2) * 5 + 1 * (y 0).val = (y 0).val; rw [e0]; omega
  | ⟨1, _⟩ => show win1_3.index t (1 : Fin 2) * 768 + 1 * (y 1).val = (y 1).val; rw [e1]; omega

/-- The second bias row is held whole at every point. -/
theorem iblk1_4_eq (c : Dev nD) (t : Fin cfg1.N) : iblk1 V c 4 t = V c main_v3 := by
  funext y
  unfold iblk1
  rw [View.read_apply]
  obtain ⟨-, -, -, -, -, -, -, -, e0, e1, -⟩ := idx_facts1 t
  refine congrArg (V c main_v3) (funext fun ax => Fin.ext ?_)
  match ax with
  | ⟨0, _⟩ => show win1_4.index t (0 : Fin 2) * 1 + 1 * (y 0).val = (y 0).val; rw [e0]; omega
  | ⟨1, _⟩ => show win1_4.index t (1 : Fin 2) * 5 + 1 * (y 1).val = (y 1).val; rw [e1]; omega

/-! ## One point's contribution -/

/-- Entry (a, r) of the flattened maps, as an extended real. -/
abbrev flatAt (c : Dev nD) (a : Fin 256) (r : Fin 50176) : EReal := V c main_v1 (ix2 a r)

/-- Entry (d, r) of the first weight matrix, as an extended real. -/
abbrev w1At (c : Dev nD) (d : Fin 768) (r : Fin 50176) : EReal := V c main_arg1 (ix2 d r)

/-- The product flat[a,r] · W1[d,r] at column r; zero past the last column, so that it is a function of every natural. -/
def term (c : Dev nD) (a : Fin 256) (d : Fin 768) (r : ℕ) : EReal :=
  if h : r < 50176 then flatAt V c a ⟨r, h⟩ * w1At V c d ⟨r, h⟩ else 0

/-- What point t adds to the accumulator's entry (a, d): the products over the point's 3584 columns (x0, x1 the
    point's two blocks). -/
theorem blockSum (c : Dev nD) (t : Fin cfg1.N) (a : Fin 256) (d : Fin 768)
    (x0 : Vec Ideal S256x3584 .f32) (x1 : Vec Ideal S768x3584 .f32) (h0 : x0 = iblk1 V c 0 t) (h1 : x1 = iblk1 V c 1 t) :
    ∑ kk : Fin 3584, x0 (ix2 a kk) * x1 (ix2 d kk) = ∑ j ∈ Finset.range 3584, term V c a d (3584 * t.val + j) := by
  subst h0 h1
  rw [Finset.sum_range]
  refine Finset.sum_congr rfl fun kk _ => ?_
  have e0 := iblk1_0_apply V c t a kk
  have e1 := iblk1_1_apply V c t d kk
  unfold term
  rw [dif_pos (col_lt t kk)]
  exact congrArg₂ (fun x y : EReal => x * y) e0 e1

/-- All 14 · 3584 columns: the whole contraction. -/
theorem allBlocks (c : Dev nD) (a : Fin 256) (d : Fin 768) :
    ∑ i ∈ Finset.range 14, ∑ j ∈ Finset.range 3584, term V c a d (3584 * i + j)
      = ∑ r : Fin 50176, flatAt V c a r * w1At V c d r := by
  rw [Cert.LibRangeBlocks.sum_range_blocks 14 3584 (term V c a d), show 14 * 3584 = 50176 from rfl, Finset.sum_range]
  refine Finset.sum_congr rfl fun r _ => ?_
  unfold term
  rw [dif_pos r.isLt]

end Cert.KernelIdeal.MmValue

end
-- ==== Proof.MmValue.lean ====
/-
  What the matrix-product region leaves in its result array, on the extended reals.

  After point n the accumulator's entry (a, d) holds the products flat[a,r] · W1[d,r] summed over the columns of the
  blocks 0 … n: the first point adds its block's sum to the cleared accumulator, every later point adds its own to
  what the point before left. After the last point that is the whole contraction over the 50176 columns, and the
  result window holds, at (a, j), the second dense layer of the rectified first layer of sample a's flattened maps.
  The result window is written back at the last point only, and its one block is the whole array.
-/
import proofs.«182137_j42588895707592_2_alg».proof.Proof.KIR1Pieces
import proofs.«182137_j42588895707592_2_alg».proof.Proof.MmPayload
import proofs.«182137_j42588895707592_2_alg».proof.Proof.MmBlocks
import proofs.«182137_j42588895707592_2_alg».proof.Proof.LibDenseRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MmValue

open Cert.KernelIdeal Cert.KernelIdeal.Gen Cert.KernelIdeal.Hand Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-! ## The accumulator, point by point -/

/-- The first point adds its block's product to the cleared accumulator. -/
theorem acc_at_first (c : Dev nD) (t : Fin cfg1.N) (h0 : t.val % 14 = 0) :
    (outsAt1 (F := Ideal) V c t.val t.isLt).2 = k1_pay2 (iblk1 V c 0 t) (iblk1 V c 1 t) (k1_pay1 (F := Ideal)) := by
  have hN : t.val < 14 := lt_of_lt_of_eq t.isLt (show cfg1.N = 14 from N_1)
  have h1 : ¬t.val % 14 = 13 := by omega
  rw [outsAt1_A V c t h0 h1]
  dsimp only
  rw [sout1_A_eq]

/-- A later point adds its block's product to what the point before left. -/
theorem acc_at_later (c : Dev nD) (t : Fin cfg1.N) (h0 : ¬t.val % 14 = 0) :
    (outsAt1 (F := Ideal) V c t.val t.isLt).2
      = k1_pay2 (iblk1 V c 0 t) (iblk1 V c 1 t)
          (outsAt1 (F := Ideal) V c (t.val - 1) (Nat.lt_of_le_of_lt (Nat.sub_le _ _) t.isLt)).2 := by
  by_cases h1 : t.val % 14 = 13
  · rw [outsAt1_C V c t h0 h1]
    dsimp only
    rw [sout1_C_eq]
  · rw [outsAt1_B V c t h0 h1]
    dsimp only
    rw [sout1_B_eq]

/-- The last point stores the finishing layer of the accumulator it has just completed. -/
theorem res_at_last (c : Dev nD) (t : Fin cfg1.N) (h0 : ¬t.val % 14 = 0) (h1 : t.val % 14 = 13) :
    (outsAt1 (F := Ideal) V c t.val t.isLt).1
      = k1_pay3 (k1_pay2 (iblk1 V c 0 t) (iblk1 V c 1 t)
            (outsAt1 (F := Ideal) V c (t.val - 1) (Nat.lt_of_le_of_lt (Nat.sub_le _ _) t.isLt)).2)
          (iblk1 V c 2 t) (iblk1 V c 3 t) (iblk1 V c 4 t) := by
  rw [outsAt1_C V c t h0 h1]
  dsimp only
  rw [out1_C_eq]

/-- After point n the accumulator's entry (a, d) is the sum of the products over the columns of the blocks 0 … n. -/
theorem acc_apply (c : Dev nD) (a : Fin 256) (d : Fin 768) : ∀ (n : ℕ) (hn : n < cfg1.N),
    (outsAt1 (F := Ideal) V c n hn).2 (ix2 a d)
      = ∑ i ∈ Finset.range (n + 1), ∑ j ∈ Finset.range 3584, term V c a d (3584 * i + j) := by
  intro n
  induction n with
  | zero =>
    intro hn
    rw [show (outsAt1 (F := Ideal) V c 0 hn).2 = k1_pay2 (iblk1 V c 0 ⟨0, hn⟩) (iblk1 V c 1 ⟨0, hn⟩) (k1_pay1 (F := Ideal))
      from acc_at_first V c ⟨0, hn⟩ (Nat.zero_mod 14)]
    rw [k1_pay2_apply, k1_pay1_apply, zero_add, blockSum V c ⟨0, hn⟩ a d _ _ rfl rfl, Finset.sum_range_one]
  | succ n ih =>
    intro hn
    have hN : n + 1 < 14 := lt_of_lt_of_eq hn (show cfg1.N = 14 from N_1)
    rw [show (outsAt1 (F := Ideal) V c (n + 1) hn).2
        = k1_pay2 (iblk1 V c 0 ⟨n + 1, hn⟩) (iblk1 V c 1 ⟨n + 1, hn⟩) (outsAt1 (F := Ideal) V c n (Nat.lt_of_succ_lt hn)).2
      from acc_at_later V c ⟨n + 1, hn⟩ (by show ¬(n + 1) % 14 = 0; omega)]
    rw [k1_pay2_apply, ih, blockSum V c ⟨n + 1, hn⟩ a d _ _ rfl rfl]
    exact (Finset.sum_range_succ (fun i => ∑ j ∈ Finset.range 3584, term V c a d (3584 * i + j)) (n + 1)).symm

/-! ## The result window after the last point -/

theorem last_lt : 13 < cfg1.N := by rw [show cfg1.N = 14 from N_1]; decide

/-- After the last point the accumulator's entry (a, d) is the whole contraction over the 50176 columns. -/
theorem acc_final (c : Dev nD) (a : Fin 256) (d : Fin 768) :
    (outsAt1 (F := Ideal) V c 13 last_lt).2 (ix2 a d) = ∑ k : Fin 50176, flatAt V c a k * w1At V c d k :=
  (acc_apply V c a d 13 last_lt).trans (allBlocks V c a d)

/-- After the last point the result window's entry (a, j) is the second dense layer of the rectified first layer. -/
theorem result_apply (c : Dev nD) (a : Fin 256) (j : Fin 5) :
    (outsAt1 (F := Ideal) V c 13 last_lt).1 (ix2 a j)
      = Cert.DenseRows.dense (fun j d => V c main_arg3 (ix2 j d)) (fun j => V c main_v3 (ix2 (0 : Fin 1) j))
          (Cert.DenseRows.reluDense (fun d k => V c main_arg1 (ix2 d k)) (fun d => V c main_v2 (ix2 (0 : Fin 1) d))
            (fun k : Fin 50176 => V c main_v1 (ix2 a k))) j := by
  have h0 : ¬(⟨13, last_lt⟩ : Fin cfg1.N).val % 14 = 0 := by show ¬13 % 14 = 0; decide
  have h1 : (⟨13, last_lt⟩ : Fin cfg1.N).val % 14 = 13 := by show 13 % 14 = 13; decide
  rw [show (outsAt1 (F := Ideal) V c 13 last_lt).1
      = k1_pay3 (outsAt1 (F := Ideal) V c 13 last_lt).2 (iblk1 V c 2 ⟨13, last_lt⟩) (iblk1 V c 3 ⟨13, last_lt⟩) (iblk1 V c 4 ⟨13, last_lt⟩)
    from (res_at_last V c ⟨13, last_lt⟩ h0 h1).trans
      (congrArg (fun acc => k1_pay3 acc (iblk1 V c 2 ⟨13, last_lt⟩) (iblk1 V c 3 ⟨13, last_lt⟩) (iblk1 V c 4 ⟨13, last_lt⟩))
        (acc_at_later V c ⟨13, last_lt⟩ h0).symm)]
  rw [k1_pay3_apply, iblk1_4_eq, iblk1_2_eq, iblk1_3_eq]
  unfold Cert.DenseRows.dense Cert.DenseRows.reluDense Cert.DenseRows.dense
  refine congrArg (fun s : EReal => s + V c main_v3 (ix2 (0 : Fin 1) j)) (Finset.sum_congr rfl fun d _ => ?_)
  exact congrArg (fun s : EReal => max (s + V c main_v2 (ix2 (0 : Fin 1) d)) 0 * V c main_arg3 (ix2 j d)) (acc_final V c a d)

/-! ## The result array -/

/-- The one write-back, at the last point, writes the result window back whole. -/
theorem flushed5_eq (c : Dev nD) (t : Fin cfg1.N) (hf : (cfg1.win 5).flush t = true) :
    (dat1 (F := Ideal) V c).flushed 5 t = ((cfg1.win 5).blk t).view.read (Elt Ideal) (outsAt1 (F := Ideal) V c 13 last_lt).1 := by
  have hN : t.val < 14 := lt_of_lt_of_eq t.isLt (show cfg1.N = 14 from N_1)
  have h13 : t.val = 13 := by have := (flush1_5 t).mp hf; omega
  obtain rfl : t = ⟨13, last_lt⟩ := Fin.ext h13
  show (cfg1.win 5).cut (grid1.coords ⟨13, last_lt⟩) ((dat1 (F := Ideal) V c).after 5 ⟨13, last_lt⟩) = _
  rw [after1_5]
  obtain ⟨-, -, -, -, -, -, -, -, -, -, e0, e1⟩ := idx_facts1 ⟨13, last_lt⟩
  funext y
  rw [View.read_apply]
  refine congrArg (outsAt1 (F := Ideal) V c 13 last_lt).1 (funext fun ax => Fin.ext ?_)
  match ax with
  | ⟨0, _⟩ => show (y 0).val = win1_5.index ⟨13, last_lt⟩ (0 : Fin 2) * 256 + 1 * (y 0).val; rw [e0]; omega
  | ⟨1, _⟩ => show (y 1).val = win1_5.index ⟨13, last_lt⟩ (1 : Fin 2) * 5 + 1 * (y 1).val; rw [e1]; omega

/-- An index of the result array is in point t's block iff each coordinate is in the block's range on its axis. -/
theorem mem_blk5 (t : Fin cfg1.N) (i : S256x5.Idx) :
    i ∈ ((cfg1.win 5).blk t).view.set ↔ ∀ a : Fin 2, win1_5.index t a * S256x5.size a ≤ (i a).val ∧ (i a).val < win1_5.index t a * S256x5.size a + S256x5.size a := by
  show i ∈ ((View.whole main_v4).slice (win1_5.rect t)).set ↔ _
  rw [View.set_slice_whole, Rect.mem_set_unit]
  exact Iff.rfl

/-- So the result array ends holding the result window after the last point. -/
theorem final5 (c : Dev nD) : (dat1 (F := Ideal) V c).arrAt 5 cfg1.N = (outsAt1 (F := Ideal) V c 13 last_lt).1 :=
  (dat1 (F := Ideal) V c).arrAt_eq_of_cover 5 (outsAt1 (F := Ideal) V c 13 last_lt).1 (flushed5_eq V c) fun i =>
    ⟨⟨13, last_lt⟩, (flush1_5 ⟨13, last_lt⟩).mpr (by show 13 % 14 = 13; decide), by
      rw [mem_blk5]
      obtain ⟨-, -, -, -, -, -, -, -, -, -, e0, e1⟩ := idx_facts1 ⟨13, last_lt⟩
      intro ax
      match ax with
      | ⟨0, _⟩ => show win1_5.index ⟨13, last_lt⟩ (0 : Fin 2) * 256 ≤ (i 0).val ∧ (i 0).val < win1_5.index ⟨13, last_lt⟩ (0 : Fin 2) * 256 + 256
                  rw [e0]; have hi : (i 0 : Nat) < 256 := (i 0).isLt; omega
      | ⟨1, _⟩ => show win1_5.index ⟨13, last_lt⟩ (1 : Fin 2) * 5 ≤ (i 1).val ∧ (i 1).val < win1_5.index ⟨13, last_lt⟩ (1 : Fin 2) * 5 + 5
                  rw [e1]; have hi : (i 1 : Nat) < 5 := (i 1).isLt; omega⟩

/-- **The region's result array**: at (a, j) the dense layer, with the second weights and bias, of the rectified dense
    layer, with the first weights and bias, of row a of the flattened maps. -/
theorem logits_final (V : (c : Dev nD) → (b : Ref sig .tc) → Buf (Elt Ideal) ((c : Thread nD τ).loc b)) (c : Dev nD) (a : Fin 256) (j : Fin 5) :
    (dat1 (F := Ideal) V c).arrAt 5 cfg1.N (ix2 a j)
      = Cert.DenseRows.dense (fun j d => V c main_arg3 (ix2 j d)) (fun j => V c main_v3 (ix2 (0 : Fin 1) j))
          (Cert.DenseRows.reluDense (fun d k => V c main_arg1 (ix2 d k)) (fun d => V c main_v2 (ix2 (0 : Fin 1) d))
            (fun k : Fin 50176 => V c main_v1 (ix2 a k))) j := by
  rw [final5 V c]
  exact result_apply V c a j

end Cert.KernelIdeal.MmValue

end
-- ==== Proof.KIValueFinal.lean ====
/-
  The value the program computes, with the second kernel's result array read: every final memory holds the network's
  outputs in the last array and the five arguments as launched.
-/
import proofs.«182137_j42588895707592_2_alg».proof.Proof.KIValue
import proofs.«182137_j42588895707592_2_alg».proof.Proof.MmValue

set_option maxRecDepth 16384

noncomputable section

namespace Cert.KernelIdeal.Assembly

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

/-- The second kernel leaves what it was taken to leave. -/
theorem secondKernelLeaves : SecondKernelLeaves := fun V c a j => MmValue.logits_final V c a j

/-- The last array: the network's outputs on the launch contents of the five arguments. -/
theorem kernel_logits (hsc : Cert.Spec.SX.ShapeCasts Cert.Spec.SFlat) (c : Dev nD) :
    W3 m c (Proc.devRef .tc main_v4)
      = Cert.Spec.logits hsc (m ((c : Thread nD τ).loc main_arg0)) (m ((c : Thread nD τ).loc main_arg1))
          (m ((c : Thread nD τ).loc main_arg2)) (m ((c : Thread nD τ).loc main_arg3)) (m ((c : Thread nD τ).loc main_arg4)) :=
  kernel_logits_of m secondKernelLeaves hsc c

/-- From any memory with zero counters, every weakly fair execution of the program terminates, and every final memory
    holds the network's outputs in the last array and the five arguments as launched. -/
theorem run_value (ρ : Dev nD → PrngReg) (hsc : Cert.Spec.SX.ShapeCasts Cert.Spec.SFlat) :
    θ_run (defs (F := Ideal)) (onTc (τ := τ) (main (F := Ideal))) ⟨m, fun _ => 0, ρ⟩ (fun r => ∀ c : Dev nD,
      r.2.mem ((c.tc : Thread nD τ).loc main_v4)
          = Cert.Spec.logits hsc (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_value_of m secondKernelLeaves ρ hsc

end Cert.KernelIdeal.Assembly

end
-- ==== Proof.RefMax.lean ====
/-
  The reference's channel maximum, read at an entry.

  The host reduces the feature maps over their two spatial axes with a maximum body, starting from −∞. The source
  indices that drop to the entry (b, c) are exactly the 49 indices (b, c, h, w); a fold of the maximum from the least
  element over that set is its supremum, and the supremum over the pairs (h, w) is the supremum over the rows h of each
  row's supremum over w — the specification's channel maximum.
-/
import proofs.«182137_j42588895707592_2_alg».proof.Proof.Gen.ReferenceIdeal.Read
import proofs.«182137_j42588895707592_2_alg».proof.Proof.Spec

noncomputable section

namespace Cert.RefSide

open Idealize.ShloMosaic Idealize.ShloMosaic.ValueIdx Cert.ReferenceIdeal

/-- Dropping the two spatial coordinates of (b, c, h, w) leaves (b, c). -/
theorem drop_ix4 (hred : S256x1024x7x7.ReducesTo [2, 3] S256x1024) (b : Fin 256) (c : Fin 1024) (h w : Fin 7) :
    hred.drop (ix4 b c h w) = ix2 b c := by
  funext a
  apply Fin.ext
  match a with
  | ⟨0, _⟩ => exact hred.drop_apply_val_of_eq (ix4 b c h w) ⟨0, by decide⟩ 0
  | ⟨1, _⟩ => exact hred.drop_apply_val_of_eq (ix4 b c h w) ⟨1, by decide⟩ 1

/-- A source index that drops to (b, c) is (b, c, h, w) for its own last two coordinates. -/
theorem eq_ix4_of_drop (hred : S256x1024x7x7.ReducesTo [2, 3] S256x1024) (b : Fin 256) (c : Fin 1024)
    (b' : Fin 256) (c' : Fin 1024) (h w : Fin 7) (e : hred.drop (ix4 b' c' h w) = ix2 b c) : b' = b ∧ c' = c := by
  rw [drop_ix4] at e
  exact ⟨congrFun e 0, congrFun e 1⟩

/-- **The host's maximum over the two spatial axes at (b, c)**, from an initial value that is the least element: the
    specification's channel maximum. -/
theorem hostChanMax_apply (x : FVec Ideal S256x1024x7x7 .f32) (init : FVec Ideal S_ .f32)
    (hred : S256x1024x7x7.ReducesTo [2, 3] S256x1024) (hu : 0 < S_.numel)
    (hinit : init (Shape.Idx.first hu) = (⊥ : EReal)) (b : Fin 256) (c : Fin 1024) :
    Host.reduce FloatOps.maximumf x init hred hu (ix2 b c) = Cert.Spec.chanMax x b c := by
  refine (Host.reduce_eq_fold FloatOps.maximumf x init hred hu (ix2 b c)).trans ?_
  rw [hinit]
  show (Finset.univ.filter fun i => hred.drop i = ix2 b c).fold max (⊥ : EReal) x = Cert.Spec.chanMax x b c
  unfold Cert.Spec.chanMax
  refine le_antisymm ((Finset.fold_max_le _).2 ⟨bot_le, fun i hi => ?_⟩)
    (Finset.sup_le fun h _ => Finset.sup_le fun w _ => (Finset.le_fold_max _).2 (Or.inr ⟨ix4 b c h w, ?_, le_rfl⟩))
  · obtain ⟨b', c', h, w, rfl⟩ : ∃ (b' : Fin 256) (c' : Fin 1024) (h w : Fin 7), i = ix4 b' c' h w :=
      ⟨i 0, i 1, i 2, i 3, eq_ix4 i⟩
    obtain ⟨rfl, rfl⟩ := eq_ix4_of_drop hred b c b' c' h w (Finset.mem_filter.1 hi).2
    exact le_trans (Finset.le_sup (f := fun w => x (ix4 b' c' h w)) (Finset.mem_univ w))
      (Finset.le_sup (f := fun h => (Finset.univ : Finset (Fin 7)).sup fun w => x (ix4 b' c' h w)) (Finset.mem_univ h))
  · exact Finset.mem_filter.2 ⟨Finset.mem_univ _, drop_ix4 hred b c h w⟩

/-- The reference's first stage at (b, c) is the channel maximum of its feature maps. -/
theorem val_main_v0_apply (x : FVec Ideal S256x1024x7x7 .f32) (b : Fin 256) (c : Fin 1024) :
    Cert.ReferenceIdeal.Read.val_main_v0 (F := Ideal) x (ix2 b c) = Cert.Spec.chanMax x b c :=
  hostChanMax_apply x _ _ _ (by
    show Ideal.ofBits .f32 0xFF800000#32 = ⊥
    simp [Ideal.ofBits, Ideal.ieee]) b c

end Cert.RefSide

end
-- ==== Proof.RefDense.lean ====
/-
  The reference's stages after the channel maximum, read entry by entry against the specification.

  * The scaled maps: every entry times its channel's maximum (the maximum kept as [256, 1024, 1, 1] and spread back
    over the 7 × 7 positions reads, at (b, c, h, w), the maximum of channel (b, c)).
  * The flattened maps are the specification's, both being the same re-laying of the scaled maps.
  * The hidden values: the plain product of the flattened maps with the transposed first weights holds at (a, d) the
    sum over k of flat[a,k] · W1[d,k]; with the bias row added and the maximum with the zero fill taken, this is the
    rectified dense layer of row a.
  * The outputs: the plain product of the hidden values with the transposed second weights holds at (a, j) the sum
    over d of hidden[a,d] · W2[j,d]; with the bias row added this is the dense layer of sample a's hidden values.
-/
import proofs.«182137_j42588895707592_2_alg».proof.Proof.RefMax

noncomputable section

open scoped BigOperators

namespace Cert.RefSide

open Idealize.ShloMosaic Idealize.ShloMosaic.ValueIdx Cert.ReferenceIdeal Cert.ReferenceIdeal.Read

/-! ## Where each stage reads its operands -/

theorem idx_v1_v2 (b : Fin 256) (c : Fin 1024) (h w : Fin 7) : idx_main_v1 (idx_main_v2 (ix4 b c h w)) = ix2 b c := by
  funext ax
  match ax with
  | ⟨0, _⟩ => rfl
  | ⟨1, _⟩ => rfl

theorem lidx_v6 (a : Fin 256) (d : Fin 768) (k : Fin 50176) : lidx_main_v6 (ix2 a d) k = ix2 a k := by
  funext ax
  match ax with
  | ⟨0, _⟩ => rfl
  | ⟨1, _⟩ => rfl

theorem ridx_v6 (a : Fin 256) (d : Fin 768) (k : Fin 50176) : idx_main_v5 (ridx_main_v6 (ix2 a d) k) = ix2 d k := by
  funext ax
  match ax with
  | ⟨0, _⟩ => rfl
  | ⟨1, _⟩ => rfl

theorem idx_v7_v8 (a : Fin 256) (d : Fin 768) : idx_main_v7 (idx_main_v8 (ix2 a d)) = ix1 d := by
  funext ax
  match ax with
  | ⟨0, _⟩ => rfl

theorem lidx_v12 (a : Fin 256) (j : Fin 5) (k : Fin 768) : lidx_main_v12 (ix2 a j) k = ix2 a k := by
  funext ax
  match ax with
  | ⟨0, _⟩ => rfl
  | ⟨1, _⟩ => rfl

theorem ridx_v12 (a : Fin 256) (j : Fin 5) (k : Fin 768) : idx_main_v11 (ridx_main_v12 (ix2 a j) k) = ix2 j k := by
  funext ax
  match ax with
  | ⟨0, _⟩ => rfl
  | ⟨1, _⟩ => rfl

theorem idx_v13_v14 (a : Fin 256) (j : Fin 5) : idx_main_v13 (idx_main_v14 (ix2 a j)) = ix1 j := by
  funext ax
  match ax with
  | ⟨0, _⟩ => rfl

/-! ## The scaled and the flattened maps -/

/-- The product going into the re-laying is the specification's scaled maps. -/
theorem val_main_v3_eq_scaled (x : FVec Ideal S256x1024x7x7 .f32) : val_main_v3 (F := Ideal) x = Cert.Spec.scaled x := by
  funext i
  obtain ⟨b, c, h, w, rfl⟩ : ∃ (b : Fin 256) (c : Fin 1024) (h w : Fin 7), i = ix4 b c h w := ⟨i 0, i 1, i 2, i 3, eq_ix4 i⟩
  rw [val_main_v3_apply, val_main_v2_apply, val_main_v1_apply, idx_v1_v2, val_main_v0_apply, Cert.Spec.scaled_apply]
  rfl

/-- The flattened maps are the specification's. -/
theorem val_main_v4_eq_flat (hsc : Cert.Spec.SX.ShapeCasts Cert.Spec.SFlat) (x : FVec Ideal S256x1024x7x7 .f32) :
    val_main_v4 (F := Ideal) x = Cert.Spec.flat hsc x := by
  unfold val_main_v4
  rw [val_main_v3_eq_scaled]
  rfl

/-! ## The two layers -/

/-- The bias of the first layer, kept as a row and spread over the samples, at (a, d). -/
theorem val_main_v8_read (x2 : FVec Ideal S768 .f32) (a : Fin 256) (d : Fin 768) :
    val_main_v8 (F := Ideal) x2 (ix2 a d) = x2 (ix1 d) := by
  rw [val_main_v8_apply, val_main_v7_apply, idx_v7_v8]

/-- The zero fill at any entry. -/
theorem val_main_call0_v0_read (i : S256x768.Idx) : val_main_call0_v0 (F := Ideal) i = (0 : EReal) := by
  rw [val_main_call0_v0_apply, val_main_call0_cst_apply]
  exact Ideal.ofBits_zero_f32

/-- The hidden values at (a, d): the rectified dense layer of sample a's flattened maps. -/
theorem val_main_v10_read (hsc : Cert.Spec.SX.ShapeCasts Cert.Spec.SFlat) (x0 : FVec Ideal S256x1024x7x7 .f32)
    (x1 : FVec Ideal S768x50176 .f32) (x2 : FVec Ideal S768 .f32) (a : Fin 256) (d : Fin 768) :
    val_main_v10 (F := Ideal) x0 x1 x2 (ix2 a d) = Cert.Spec.hidden hsc x0 x1 x2 a d := by
  rw [val_main_v10_apply, val_main_v9_apply, val_main_v6_apply, val_main_v8_read, val_main_call0_v0_read,
    val_main_v4_eq_flat hsc]
  show max ((∑ k : Fin 50176, Cert.Spec.flat hsc x0 (lidx_main_v6 (ix2 a d) k)
      * val_main_v5 (F := Ideal) x1 (ridx_main_v6 (ix2 a d) k)) + x2 (ix1 d)) 0 = _
  unfold Cert.Spec.hidden Cert.DenseRows.reluDense Cert.DenseRows.dense
  refine congrArg (fun s : EReal => max (s + x2 (ix1 d)) 0) (Finset.sum_congr rfl fun k _ => ?_)
  rw [lidx_v6, val_main_v5_apply, ridx_v6]

/-- The bias of the second layer, kept as a row and spread over the samples, at (a, j). -/
theorem val_main_v14_read (x4 : FVec Ideal S5 .f32) (a : Fin 256) (j : Fin 5) :
    val_main_v14 (F := Ideal) x4 (ix2 a j) = x4 (ix1 j) := by
  rw [val_main_v14_apply, val_main_v13_apply, idx_v13_v14]

/-- **The reference's result is the specification's outputs.** -/
theorem val_main_v15_eq_logits (hsc : Cert.Spec.SX.ShapeCasts Cert.Spec.SFlat) (x0 : FVec Ideal S256x1024x7x7 .f32)
    (x1 : FVec Ideal S768x50176 .f32) (x2 : FVec Ideal S768 .f32) (x3 : FVec Ideal S5x768 .f32) (x4 : FVec Ideal S5 .f32) :
    val_main_v15 (F := Ideal) x0 x1 x2 x3 x4 = Cert.Spec.logits hsc x0 x1 x2 x3 x4 := by
  funext i
  obtain ⟨a, j, rfl⟩ : ∃ (a : Fin 256) (j : Fin 5), i = ix2 a j := ⟨i 0, i 1, eq_ix2 i⟩
  rw [val_main_v15_apply, val_main_v12_apply, val_main_v14_read, Cert.Spec.logits_apply]
  show (∑ k : Fin 768, val_main_v10 (F := Ideal) x0 x1 x2 (lidx_main_v12 (ix2 a j) k)
      * val_main_v11 (F := Ideal) x3 (ridx_main_v12 (ix2 a j) k)) + x4 (ix1 j) = _
  unfold Cert.DenseRows.dense
  refine congrArg (fun s : EReal => s + x4 (ix1 j)) (Finset.sum_congr rfl fun k _ => ?_)
  rw [lidx_v12, val_main_v10_read hsc, val_main_v11_apply, ridx_v12]

end Cert.RefSide

end
-- ==== Proof.RefValue.lean ====
/-
  The reference's run against the specification.

  Every weakly fair execution of the reference ends with its result array at the specification's outputs of its own
  argument arrays — the composed term of its seventeen stages, read entry by entry — and leaves the five arguments
  unchanged; dropping the result gives its frame.
-/
import proofs.«182137_j42588895707592_2_alg».proof.Defs
import proofs.«182137_j42588895707592_2_alg».proof.Proof.Gen.ReferenceIdeal.Run
import proofs.«182137_j42588895707592_2_alg».proof.Proof.Gen.ReferenceIdeal.Read
import proofs.«182137_j42588895707592_2_alg».proof.Proof.Gen.Pre_finite_inputs
import proofs.«182137_j42588895707592_2_alg».proof.Proof.Spec
import proofs.«182137_j42588895707592_2_alg».proof.Proof.RefDense

noncomputable section

namespace Cert.RefSide

open Idealize.ShloMosaic Idealize.SL.Sem

/-- The reference's run ends with the specification's outputs of its own argument arrays, the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) (hsc : Cert.Spec.SX.ShapeCasts Cert.Spec.SFlat) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v15)
            = Cert.Spec.logits hsc (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans ((Cert.ReferenceIdeal.Read.val_main_v15_eq (F := Ideal) _ _ _ _ _).trans
      (val_main_v15_eq_logits hsc _ _ _ _ _)), (h c).2.2⟩)
    (Cert.ReferenceIdeal.Value.run (F := Ideal) m' ρ')

/-- The reference runs and leaves its arguments unchanged: its run with the result dropped. -/
theorem frame : Cert.frame_ReferenceIdeal := fun m ρ _ =>
  (θ_run Cert.ReferenceIdeal.defs _ _).mono (fun _ h c => (h c).2.2) (Cert.ReferenceIdeal.Value.run (F := Ideal) m ρ)

end Cert.RefSide

end
-- ==== Proof.lean ====
/-
  A feature map of shape [256, 1024, 7, 7] is scaled channel by channel by the largest entry of each 7 × 7 map, the
  scaled maps of a sample laid out as one row of length 50176, and two dense layers — a rectified one with 768 hidden
  units, then one with 5 outputs — applied to the rows.

  The kernel program does this in two regions. The first walks the samples two at a time: it takes each map's maximum
  in two steps (along the rows, then over the rows, both from −∞) and multiplies the map by it. After the scaled maps
  are laid out as rows, the second region walks the 50176 columns in 14 blocks of 3584, adding each block's product
  with the matching block of the first weight matrix to an accumulator it cleared at the first block; at the last
  block it adds the bias, rectifies, multiplies by the second weight matrix and adds the second bias. The reference
  takes the maximum over both axes at once and contracts all 50176 columns in one product.

  On the extended reals the two agree without any assumption on the inputs: a maximum from −∞ over a 7 × 7 map is the
  maximum over its rows of the rows' maxima, a sum of 50176 terms is the sum of its 14 consecutive blocks of 3584
  (addition on the extended reals is commutative and associative at the infinities too), adding to the cleared
  accumulator adds nothing, and rounding to a narrower format is the identity there. Both sides are therefore proved
  equal to one specification (`Cert.Spec.logits`), the kernel's through the contents of its buffers after each of its
  three stages, the reference's stage by stage. Each program's frame — it terminates, faults nowhere and leaves its
  five argument arrays unchanged — is read off the same runs; the kernel program's is proved once for any instance of
  the float operations and used at both.
-/
import proofs.«182137_j42588895707592_2_alg».proof.Defs
import proofs.«182137_j42588895707592_2_alg».proof.Proof.Gen.Kernel
import proofs.«182137_j42588895707592_2_alg».proof.Proof.Gen.KernelIdeal
import proofs.«182137_j42588895707592_2_alg».proof.Proof.Gen.ReferenceIdeal
import proofs.«182137_j42588895707592_2_alg».proof.Proof.Gen.Pre_finite_inputs
import proofs.«182137_j42588895707592_2_alg».proof.Proof.KRun
import proofs.«182137_j42588895707592_2_alg».proof.Proof.KIValueFinal
import proofs.«182137_j42588895707592_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Hand.frame (F := Bits) m ρ

/-- So does the idealized one: the same run, read on the extended reals. -/
theorem frame_ki : Cert.frame_KernelIdeal := fun m ρ _ => Cert.KernelIdeal.Hand.frame (F := Ideal) m ρ

/-- The idealization rewrote no operation. -/
theorem preserves : Cert.preserves_Kernel_KernelIdeal := trivial

/-- On the extended reals the kernel program's result array and the reference's both end at the specification's outputs
    of argument arrays that agree. -/
theorem algebraic : Cert.algebraic_KernelIdeal_ReferenceIdeal := by
  intro m ρ m' ρ' _ hagree
  have hsc : Cert.Spec.SX.ShapeCasts Cert.Spec.SFlat := Cert.KernelIdeal.Facts₀.shapeCasts_S256x1024x7x7_S256x50176
  refine ⟨fun c => Cert.Spec.logits hsc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg0), ?_, ?_⟩
  · exact (θ_run Cert.KernelIdeal.defs _ _).mono (fun _ h c => ⟨(h c).1, (h c).2.1, (h c).2⟩)
      (Cert.KernelIdeal.Assembly.run_value m ρ hsc)
  · refine (θ_run Cert.ReferenceIdeal.defs _ _).mono (fun _ h c => ?_) (Cert.RefSide.run m' ρ' hsc)
    obtain ⟨e0, e1, e2, e3, e4⟩ := hagree c
    refine ⟨?_, ?_, (h c).2⟩
    · rw [(h c).1, e0, e1, e2, e3, e4]
    · rw [(h c).2.1, e0]

theorem claim : Cert.Claim :=
  ⟨Cert.Kernel.Gen.facts, Cert.KernelIdeal.Gen.facts, Cert.ReferenceIdeal.Gen.facts, Cert.Pre_finite_inputs.Gen.facts,
    frame_k, frame_ki, Cert.RefSide.frame, preserves, algebraic⟩

end Cert.Proof

end
